-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x96 : Shape := ⟨2, ![262144, 96]⟩
abbrev S_ : Shape := ⟨0, ![]⟩

class Facts : Prop where
  bcast_S_S262144x96 : S_.BroadcastsInDim S262144x96 (![] : Fin 0 → Fin S262144x96.rank)
  reducesTo_S262144x96_S_d0_1 : S262144x96.ReducesTo [0, 1] S_
  h_S_ : 0 < S_.numel

variable [Facts]

def fn {F : FTy → Type} [FloatOps F] (main_arg0 : FVec F S262144x96 .f32) : IVec S_ 1 :=
  let main_v0 : FVec F S262144x96 .f32 := Host.absf main_arg0
  let main_cst : FVec F S_ .f32 := constant S_ .f32 0x7F800000#32
  let main_v1 : FVec F S262144x96 .f32 := broadcastInDim S262144x96 ![] bcast_S_S262144x96 main_cst
  let main_v2 : IVec S262144x96 1 := cmpf .olt main_v0 main_v1
  let main_c : IVec S_ 1 := constantI S_ 1 1#1
  let main_v3 : IVec S_ 1 := (fun x v => Host.reduce IntOp.andi x v reducesTo_S262144x96_S_d0_1 h_S_) main_v2 main_c
  main_v3
-- ==== Kernel.lean ====
abbrev S262144x96 : Shape := ⟨2, ![262144, 96]⟩
abbrev S262144x48 : Shape := ⟨2, ![262144, 48]⟩
abbrev S262144x16x3 : Shape := ⟨3, ![262144, 16, 3]⟩
abbrev S262144x16x1 : Shape := ⟨3, ![262144, 16, 1]⟩
abbrev S262144x16 : Shape := ⟨2, ![262144, 16]⟩
abbrev S262144x144 : Shape := ⟨2, ![262144, 144]⟩
abbrev S512x48 : Shape := ⟨2, ![512, 48]⟩
abbrev S512x144 : Shape := ⟨2, ![512, 144]⟩
abbrev S512x16 : Shape := ⟨2, ![512, 16]⟩
abbrev S512x16x1 : Shape := ⟨3, ![512, 16, 1]⟩
abbrev S512x16x9 : Shape := ⟨3, ![512, 16, 9]⟩
abbrev S262144x16x3x3 : Shape := ⟨4, ![262144, 16, 3, 3]⟩

abbrev nBuf : Space → Nat
  | .hbm => 15
  | .vmem => 8
  | .smem => 0
  | _ => 0

abbrev bufTy : (tb : Table) → Fin (tcTables nBuf tb) → BufTy
  | .hbm, ⟨0, _⟩ => ⟨S262144x96, .f32⟩
  | .hbm, ⟨1, _⟩ => ⟨S262144x48, .f32⟩
  | .hbm, ⟨2, _⟩ => ⟨S262144x16x3, .f32⟩
  | .hbm, ⟨3, _⟩ => ⟨S262144x16x1, .f32⟩
  | .hbm, ⟨4, _⟩ => ⟨S262144x16, .f32⟩
  | .hbm, ⟨5, _⟩ => ⟨S262144x16x1, .f32⟩
  | .hbm, ⟨6, _⟩ => ⟨S262144x16, .f32⟩
  | .hbm, ⟨7, _⟩ => ⟨S262144x16x1, .f32⟩
  | .hbm, ⟨8, _⟩ => ⟨S262144x16, .f32⟩
  | .hbm, ⟨9, _⟩ => ⟨S262144x48, .f32⟩
  | .hbm, ⟨10, _⟩ => ⟨S262144x48, .f32⟩
  | .hbm, ⟨11, _⟩ => ⟨S262144x144, .f32⟩
  | .hbm, ⟨12, _⟩ => ⟨S262144x48, .f32⟩
  | .hbm, ⟨13, _⟩ => ⟨S262144x16x3x3, .f32⟩
  | .hbm, ⟨14, _⟩ => ⟨S262144x16x3, .f32⟩
  | .local _ .vmem, ⟨0, _⟩ => ⟨S512x48, .f32⟩
  | .local _ .vmem, ⟨1, _⟩ => ⟨S512x48, .f32⟩
  | .local _ .vmem, ⟨2, _⟩ => ⟨S512x48, .f32⟩
  | .local _ .vmem, ⟨3, _⟩ => ⟨S512x48, .f32⟩
  | .local _ .vmem, ⟨4, _⟩ => ⟨S512x144, .f32⟩
  | .local _ .vmem, ⟨5, _⟩ => ⟨S512x144, .f32⟩
  | .local _ .vmem, ⟨6, _⟩ => ⟨S512x48, .f32⟩
  | .local _ .vmem, ⟨7, _⟩ => ⟨S512x48, .f32⟩
  | _, _ => ⟨S262144x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10_0 : Ref sig .tc := ⟨.hbm, 11, rfl⟩
abbrev main_v10_1 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S262144x96_S262144x48_0_0 : S262144x96.Slices ![0, 0] S262144x48
  shapeCasts_S262144x48_S262144x16x3 : S262144x48.ShapeCasts S262144x16x3
  slices_S262144x16x3_S262144x16x1_0_0_0 : S262144x16x3.Slices ![0, 0, 0] S262144x16x1
  shapeCasts_S262144x16x1_S262144x16 : S262144x16x1.ShapeCasts S262144x16
  slices_S262144x16x3_S262144x16x1_0_0_1 : S262144x16x3.Slices ![0, 0, 1] S262144x16x1
  slices_S262144x16x3_S262144x16x1_0_0_2 : S262144x16x3.Slices ![0, 0, 2] S262144x16x1
  concatenates_S262144x16_S262144x16_S262144x16_S262144x48_d1 : Shape.Concatenates [S262144x16, S262144x16, S262144x16] S262144x48 1
  slices_S262144x96_S262144x48_0_48 : S262144x96.Slices ![0, 48] S262144x48
  inb_S512x48_S512x48_0_0 : ∀ a, (![0, 0] : Fin 2 → Nat) a + S512x48.size a ≤ S512x48.size a
  h_S512x48 : 0 < S512x48.numel
  shapeCasts_S512x48_S512x48 : S512x48.ShapeCasts S512x48
  slices_S512x48_o0_0_S512x16 : S512x48.Slices ![0, 0] S512x16
  slices_S512x48_o0_16_S512x16 : S512x48.Slices ![0, 16] S512x16
  slices_S512x48_o0_32_S512x16 : S512x48.Slices ![0, 32] S512x16
  shapeCasts_S512x16_S512x16x1 : S512x16.ShapeCasts S512x16x1
  concatenates_S512x16x1_S512x16x1_S512x16x1_S512x16x1_S512x16x1_S512x16x1_S512x16x1_S512x16x1_S512x16x1_S512x16x9_d2 : Shape.Concatenates [S512x16x1, S512x16x1, S512x16x1, S512x16x1, S512x16x1, S512x16x1, S512x16x1, S512x16x1, S512x16x1] S512x16x9 2
  shapeCasts_S512x16x9_S512x144 : S512x16x9.ShapeCasts S512x144
  inb_S512x144_S512x144_0_0 : ∀ a, (![0, 0] : Fin 2 → Nat) a + S512x144.size a ≤ S512x144.size a
  h_S512x144 : 0 < S512x144.numel
  shapeCasts_S262144x144_S262144x16x3x3 : S262144x144.ShapeCasts S262144x16x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x48.size a ≤ S262144x48.size a
  hwx0_0 : ∀ i : grid0.Coords, EltTy.bits .f32 = 32 ∨ (Rect.block (s := S262144x48) S512x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x48.size a ≤ S262144x48.size a
  hwx0_1 : ∀ i : grid0.Coords, EltTy.bits .f32 = 32 ∨ (Rect.block (s := S262144x48) S512x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x144.size a ≤ S262144x144.size a
  hwx0_2 : ∀ i : grid0.Coords, EltTy.bits .f32 = 32 ∨ (Rect.block (s := S262144x144) S512x144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x48.size a ≤ S262144x48.size a
  hwx0_3 : ∀ i : grid0.Coords, EltTy.bits .f32 = 32 ∨ (Rect.block (s := S262144x48) S512x48.size (cc0_transform_3 i) (hinb0_3 i)).WholeWords (EltTy.packing .f32)

variable [Facts₀]

abbrev win0_0 : Pipeline.Window sig grid0 :=
  Pipeline.Window.ofSpec (Memref.whole main_v8) S512x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S512x144.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S512x48.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x96 : Shape := ⟨2, ![262144, 96]⟩
abbrev S262144x48 : Shape := ⟨2, ![262144, 48]⟩
abbrev S262144x16x3 : Shape := ⟨3, ![262144, 16, 3]⟩
abbrev S262144x16x1 : Shape := ⟨3, ![262144, 16, 1]⟩
abbrev S262144x16 : Shape := ⟨2, ![262144, 16]⟩
abbrev S_ : Shape := ⟨0, ![]⟩
abbrev S262144x16x1x3 : Shape := ⟨4, ![262144, 16, 1, 3]⟩
abbrev S262144x16x3x3 : Shape := ⟨4, ![262144, 16, 3, 3]⟩
abbrev S3x3 : Shape := ⟨2, ![3, 3]⟩
abbrev S262144x16x1x1 : Shape := ⟨4, ![262144, 16, 1, 1]⟩
abbrev S1x1x3x3 : Shape := ⟨4, ![1, 1, 3, 3]⟩

abbrev nBuf : Space → Nat
  | .hbm => 97
  | .vmem => 0
  | .smem => 0
  | _ => 0

abbrev bufTy : (tb : Table) → Fin (tcTables nBuf tb) → BufTy
  | .hbm, ⟨0, _⟩ => ⟨S262144x96, .f32⟩
  | .hbm, ⟨1, _⟩ => ⟨S262144x48, .f32⟩
  | .hbm, ⟨2, _⟩ => ⟨S262144x16x3, .f32⟩
  | .hbm, ⟨3, _⟩ => ⟨S262144x16x1, .f32⟩
  | .hbm, ⟨4, _⟩ => ⟨S262144x16, .f32⟩
  | .hbm, ⟨5, _⟩ => ⟨S262144x16x1, .f32⟩
  | .hbm, ⟨6, _⟩ => ⟨S262144x16, .f32⟩
  | .hbm, ⟨7, _⟩ => ⟨S262144x16x1, .f32⟩
  | .hbm, ⟨8, _⟩ => ⟨S262144x16, .f32⟩
  | .hbm, ⟨9, _⟩ => ⟨S_, .f32⟩
  | .hbm, ⟨10, _⟩ => ⟨S262144x16, .f32⟩
  | .hbm, ⟨11, _⟩ => ⟨S262144x16x1, .f32⟩
  | .hbm, ⟨12, _⟩ => ⟨S262144x16x1, .f32⟩
  | .hbm, ⟨13, _⟩ => ⟨S262144x16x1, .f32⟩
  | .hbm, ⟨14, _⟩ => ⟨S262144x16x3, .f32⟩
  | .hbm, ⟨15, _⟩ => ⟨S262144x16, .f32⟩
  | .hbm, ⟨16, _⟩ => ⟨S262144x16x1, .f32⟩
  | .hbm, ⟨17, _⟩ => ⟨S262144x16x1, .f32⟩
  | .hbm, ⟨18, _⟩ => ⟨S262144x16x1, .f32⟩
  | .hbm, ⟨19, _⟩ => ⟨S262144x16x3, .f32⟩
  | .hbm, ⟨20, _⟩ => ⟨S262144x16, .f32⟩
  | .hbm, ⟨21, _⟩ => ⟨S262144x16, .f32⟩
  | .hbm, ⟨22, _⟩ => ⟨S262144x16x1, .f32⟩
  | .hbm, ⟨23, _⟩ => ⟨S262144x16x1, .f32⟩
  | .hbm, ⟨24, _⟩ => ⟨S262144x16x1, .f32⟩
  | .hbm, ⟨25, _⟩ => ⟨S262144x16x3, .f32⟩
  | .hbm, ⟨26, _⟩ => ⟨S262144x16x1x3, .f32⟩
  | .hbm, ⟨27, _⟩ => ⟨S262144x16x1x3, .f32⟩
  | .hbm, ⟨28, _⟩ => ⟨S262144x16x1x3, .f32⟩
  | .hbm, ⟨29, _⟩ => ⟨S262144x16x3x3, .f32⟩
  | .hbm, ⟨30, _⟩ => ⟨S262144x16, .f32⟩
  | .hbm, ⟨31, _⟩ => ⟨S262144x16, .f32⟩
  | .hbm, ⟨32, _⟩ => ⟨S262144x16, .f32⟩
  | .hbm, ⟨33, _⟩ => ⟨S262144x16, .f32⟩
  | .hbm, ⟨34, _⟩ => ⟨S262144x16, .f32⟩
  | .hbm, ⟨35, _⟩ => ⟨S_, .f32⟩
  | .hbm, ⟨36, _⟩ => ⟨S262144x16, .f32⟩
  | .hbm, ⟨37, _⟩ => ⟨S262144x16, .i1⟩
  | .hbm, ⟨38, _⟩ => ⟨S_, .f32⟩
  | .hbm, ⟨39, _⟩ => ⟨S262144x16, .f32⟩
  | .hbm, ⟨40, _⟩ => ⟨S262144x16, .f32⟩
  | .hbm, ⟨41, _⟩ => ⟨S262144x16, .f32⟩
  | .hbm, ⟨42, _⟩ => ⟨S_, .f32⟩
  | .hbm, ⟨43, _⟩ => ⟨S262144x16, .f32⟩
  | .hbm, ⟨44, _⟩ => ⟨S262144x16, .f32⟩
  | .hbm, ⟨45, _⟩ => ⟨S_, .f32⟩
  | .hbm, ⟨46, _⟩ => ⟨S262144x16, .f32⟩
  | .hbm, ⟨47, _⟩ => ⟨S262144x16, .f32⟩
  | .hbm, ⟨48, _⟩ => ⟨S262144x16, .f32⟩
  | .hbm, ⟨49, _⟩ => ⟨S262144x16, .f32⟩
  | .hbm, ⟨50, _⟩ => ⟨S262144x16, .f32⟩
  | .hbm, ⟨51, _⟩ => ⟨S_, .f32⟩
  | .hbm, ⟨52, _⟩ => ⟨S262144x16, .f32⟩
  | .hbm, ⟨53, _⟩ => ⟨S262144x16, .f32⟩
  | .hbm, ⟨54, _⟩ => ⟨S_, .f32⟩
  | .hbm, ⟨55, _⟩ => ⟨S262144x16, .f32⟩
  | .hbm, ⟨56, _⟩ => ⟨S262144x16, .f32⟩
  | .hbm, ⟨57, _⟩ => ⟨S262144x16, .f32⟩
  | .hbm, ⟨58, _⟩ => ⟨S_, .f32⟩
  | .hbm, ⟨59, _⟩ => ⟨S262144x16, .f32⟩
  | .hbm, ⟨60, _⟩ => ⟨S262144x16, .f32⟩
  | .hbm, ⟨61, _⟩ => ⟨S262144x16, .f32⟩
  | .hbm, ⟨62, _⟩ => ⟨S262144x16, .f32⟩
  | .hbm, ⟨63, _⟩ => ⟨S262144x16x3x3, .f32⟩
  | .hbm, ⟨64, _⟩ => ⟨S3x3, .i32⟩
  | .hbm, ⟨65, _⟩ => ⟨S3x3, .i32⟩
  | .hbm, ⟨66, _⟩ => ⟨S_, .i32⟩
  | .hbm, ⟨67, _⟩ => ⟨S3x3, .i32⟩
  | .hbm, ⟨68, _⟩ => ⟨S3x3, .i32⟩
  | .hbm, ⟨69, _⟩ => ⟨S3x3, .i1⟩
  | .hbm, ⟨70, _⟩ => ⟨S3x3, .f32⟩
  | .hbm, ⟨71, _⟩ => ⟨S262144x16x1x1, .f32⟩
  | .hbm, ⟨72, _⟩ => ⟨S262144x16x3x3, .f32⟩
  | .hbm, ⟨73, _⟩ => ⟨S262144x16x3x3, .f32⟩
  | .hbm, ⟨74, _⟩ => ⟨S1x1x3x3, .f32⟩
  | .hbm, ⟨75, _⟩ => ⟨S262144x16x3x3, .f32⟩
  | .hbm, ⟨76, _⟩ => ⟨S262144x16x3x3, .f32⟩
  | .hbm, ⟨77, _⟩ => ⟨S262144x16x1x1, .f32⟩
  | .hbm, ⟨78, _⟩ => ⟨S262144x16x3x3, .f32⟩
  | .hbm, ⟨79, _⟩ => ⟨S262144x16x3x3, .f32⟩
  | .hbm, ⟨80, _⟩ => ⟨S262144x16x3x3, .f32⟩
  | .hbm, ⟨81, _⟩ => ⟨S262144x48, .f32⟩
  | .hbm, ⟨82, _⟩ => ⟨S262144x16x3, .f32⟩
  | .hbm, ⟨83, _⟩ => ⟨S262144x16x3, .f32⟩
  | .hbm, ⟨84, _⟩ => ⟨S262144x16x3, .f32⟩
  | .hbm, ⟨85, _⟩ => ⟨S_, .f32⟩
  | .hbm, ⟨86, _⟩ => ⟨S262144x16x3, .f32⟩
  | .hbm, ⟨87, _⟩ => ⟨S262144x16x3, .f32⟩
  | .hbm, ⟨88, _⟩ => ⟨S_, .f32⟩
  | .hbm, ⟨89, _⟩ => ⟨S262144x16x3, .f32⟩
  | .hbm, ⟨90, _⟩ => ⟨S262144x16x3, .f32⟩
  | .hbm, ⟨91, _⟩ => ⟨S_, .f32⟩
  | .hbm, ⟨92, _⟩ => ⟨S262144x16x3, .f32⟩
  | .hbm, ⟨93, _⟩ => ⟨S262144x16x3, .f32⟩
  | .hbm, ⟨94, _⟩ => ⟨S_, .f32⟩
  | .hbm, ⟨95, _⟩ => ⟨S262144x16x3, .f32⟩
  | .hbm, ⟨96, _⟩ => ⟨S262144x16x3, .f32⟩
  | _, _ => ⟨S262144x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_cst_0 : Ref sig .tc := ⟨.hbm, 35, rfl⟩
abbrev main_v33 : Ref sig .tc := ⟨.hbm, 36, rfl⟩
abbrev main_v34 : Ref sig .tc := ⟨.hbm, 37, rfl⟩
abbrev main_cst_1 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_2 : Ref sig .tc := ⟨.hbm, 42, rfl⟩
abbrev main_v38 : Ref sig .tc := ⟨.hbm, 43, rfl⟩
abbrev main_v39 : Ref sig .tc := ⟨.hbm, 44, rfl⟩
abbrev main_cst_3 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_4 : Ref sig .tc := ⟨.hbm, 51, rfl⟩
abbrev main_v45 : Ref sig .tc := ⟨.hbm, 52, rfl⟩
abbrev main_v46 : Ref sig .tc := ⟨.hbm, 53, rfl⟩
abbrev main_cst_5 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_6 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_c : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_7 : Ref sig .tc := ⟨.hbm, 85, rfl⟩
abbrev main_v75 : Ref sig .tc := ⟨.hbm, 86, rfl⟩
abbrev main_v76 : Ref sig .tc := ⟨.hbm, 87, rfl⟩
abbrev main_cst_8 : Ref sig .tc := ⟨.hbm, 88, rfl⟩
abbrev main_v77 : Ref sig .tc := ⟨.hbm, 89, rfl⟩
abbrev main_v78 : Ref sig .tc := ⟨.hbm, 90, rfl⟩
abbrev main_cst_9 : Ref sig .tc := ⟨.hbm, 91, rfl⟩
abbrev main_v79 : Ref sig .tc := ⟨.hbm, 92, rfl⟩
abbrev main_v80 : Ref sig .tc := ⟨.hbm, 93, rfl⟩
abbrev main_cst_10 : Ref sig .tc := ⟨.hbm, 94, rfl⟩
abbrev main_v81 : Ref sig .tc := ⟨.hbm, 95, rfl⟩
abbrev main_v82 : Ref sig .tc := ⟨.hbm, 96, rfl⟩

abbrev nD : Nat := 1
abbrev τ : Topo := Topo.v7x

variable {F : FTy → Type} [FloatOps F]

class Facts₀ : Prop where
  slices_S262144x96_S262144x48_0_0 : S262144x96.Slices ![0, 0] S262144x48
  shapeCasts_S262144x48_S262144x16x3 : S262144x48.ShapeCasts S262144x16x3
  slices_S262144x16x3_S262144x16x1_0_0_0 : S262144x16x3.Slices ![0, 0, 0] S262144x16x1
  shapeCasts_S262144x16x1_S262144x16 : S262144x16x1.ShapeCasts S262144x16
  slices_S262144x16x3_S262144x16x1_0_0_1 : S262144x16x3.Slices ![0, 0, 1] S262144x16x1
  slices_S262144x16x3_S262144x16x1_0_0_2 : S262144x16x3.Slices ![0, 0, 2] S262144x16x1
  bcast_S_S262144x16 : S_.BroadcastsInDim S262144x16 (![] : Fin 0 → Fin S262144x16.rank)
  bcast_S262144x16_S262144x16x1_0_1 : S262144x16.BroadcastsInDim S262144x16x1 (![0, 1] : Fin 2 → Fin S262144x16x1.rank)
  concatenates_S262144x16x1_S262144x16x1_S262144x16x1_S262144x16x3_d2 : Shape.Concatenates [S262144x16x1, S262144x16x1, S262144x16x1] S262144x16x3 2
  bcast_S262144x16x3_S262144x16x1x3_0_1_3 : S262144x16x3.BroadcastsInDim S262144x16x1x3 (![0, 1, 3] : Fin 3 → Fin S262144x16x1x3.rank)
  concatenates_S262144x16x1x3_S262144x16x1x3_S262144x16x1x3_S262144x16x3x3_d2 : Shape.Concatenates [S262144x16x1x3, S262144x16x1x3, S262144x16x1x3] S262144x16x3x3 2
  bcast_S_S3x3 : S_.BroadcastsInDim S3x3 (![] : Fin 0 → Fin S3x3.rank)
  bcast_S262144x16_S262144x16x1x1_0_1 : S262144x16.BroadcastsInDim S262144x16x1x1 (![0, 1] : Fin 2 → Fin S262144x16x1x1.rank)
  bcast_S262144x16x1x1_S262144x16x3x3_0_1_2_3 : S262144x16x1x1.BroadcastsInDim S262144x16x3x3 (![0, 1, 2, 3] : Fin 4 → Fin S262144x16x3x3.rank)
  bcast_S3x3_S1x1x3x3_2_3 : S3x3.BroadcastsInDim S1x1x3x3 (![2, 3] : Fin 2 → Fin S1x1x3x3.rank)
  bcast_S1x1x3x3_S262144x16x3x3_0_1_2_3 : S1x1x3x3.BroadcastsInDim S262144x16x3x3 (![0, 1, 2, 3] : Fin 4 → Fin S262144x16x3x3.rank)
  slices_S262144x96_S262144x48_0_48 : S262144x96.Slices ![0, 48] S262144x48
  bcast_S_S262144x16x3 : S_.BroadcastsInDim S262144x16x3 (![] : Fin 0 → Fin S262144x16x3.rank)
  dot_S262144x16x3x3_S262144x16x3x3_S262144x16x3x3_3_2_2_3_01_01_wf : DotDims.WF S262144x16x3x3 S262144x16x3x3 S262144x16x3x3 [3] [2] [2] [3] [0, 1] [0, 1]

variable [Facts₀]

def dot_S262144x16x3x3_S262144x16x3x3_S262144x16x3x3_3_2_2_3_01_01 : DotDims S262144x16x3x3 S262144x16x3x3 S262144x16x3x3 where
  lhsContracting := [3]
  rhsContracting := [2]
  lhsNonContracting := [2]
  rhsNonContracting := [3]
  lhsBatch := [0, 1]
  rhsBatch := [0, 1]
  wf := dot_S262144x16x3x3_S262144x16x3x3_S262144x16x3x3_3_2_2_3_01_01_wf

class Facts : Prop extends Facts₀ where

variable [Facts]
-- ==== Proof.FrameBits.lean ====
/-
  The frame run of `Kernel`'s @main, written against the library's launch theorem for one region between two
  stretches of host operations.

  @main is: ten host operations (the first 48 columns of the argument re-laid as three 16-column planes side by
  side, and the last 48 columns sliced off), ONE pallas_call on a grid of 512 points, and two reshapes of its results.
  At every point the body reads the whole 512x48 blocks of its two inputs and overwrites the whole 512x144 and
  512x48 blocks of its two outputs, so after the body an output's staging buffer holds ONE piece: the body's pure
  payload of the input block. The run therefore ends with each output array assembled from those per-point
  pieces, every other buffer as the host operations leave it, and the argument array untouched.
-/
import proofs.«159265_j83631603187719_2_alg».proof.Proof.Gen.Kernel.Launch
import proofs.«159265_j83631603187719_2_alg».proof.Proof.Gen.Kernel.Skeleton
import proofs.«159265_j83631603187719_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch memory after the ten host operations. -/
abbrev V0 (c : Dev nD) : Valuation τ sig (Elt F) := StableHlo.after (List.flatten [hostOps0]) (fun b => m (c, b))
/-- The same, read at a TensorCore buffer. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch of host operations, the region, and the region's continuation: the two reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch only the region's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's four arrays: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- No host operation before the region writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- Nor does a reshape after it: the argument array ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`: rows `512 t … 512 t + 511` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block when the body starts, at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument array is no array of the region and is not scoped, so the run's post has it as the reshapes after
    the region leave it: as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## What the body leaves in each output window's buffer -/

/-- The whole 512x48 block and the whole 512x144 block as rectangles. -/
abbrev rIn : Rect S512x48 := Rect.unit (s := S512x48) ![0, 0] S512x48.size inb_S512x48_S512x48_0_0
abbrev rMean : Rect S512x144 := Rect.unit (s := S512x144) ![0, 0] S512x144.size inb_S512x144_S512x144_0_0

/-- The nine rotation entries of every row and gaussian of a 512x48 block of packed axis parameters, laid out
    row-major as 512x144: the body's arithmetic as one pure term of the loaded block. -/
def meanOf (v0 : Vec F S512x48 .f32) : FVec F S512x144 .f32 :=
  k0_pay1 (k0_pay5 v0) (k0_pay6 v0) (k0_pay7 v0) (k0_pay8 v0) (k0_pay10 v0) (k0_pay11 v0) (k0_pay13 v0) (k0_pay17 v0)
    (k0_pay18 v0) (k0_pay19 v0) (k0_pay20 v0) (k0_pay21 v0) (k0_pay22 v0) (k0_pay23 v0)

/-- The mean window's buffer after the body: one piece, the whole block. -/
def out0_2 (x0 : Vec F S512x48 .f32) : Vec F S512x144 .f32 :=
  View.canon [⟨rMean, meanOf (View.ld x0 rIn)⟩]
/-- The log-variance window's buffer after the body: one piece, the whole block. -/
def out0_3 (x1 : Vec F S512x48 .f32) : Vec F S512x48 .f32 :=
  View.canon [⟨rIn, k0_pay2 (View.ld x1 rIn)⟩]

theorem cover0_2 (p0 : Vec F S512x144 .f32) (y : S512x144.Idx) :
    ∃ pc ∈ ([⟨rMean, p0⟩] : List (View.Piece (Elt F) S512x144 .f32)), y ∈ pc.1.set :=
  View.cover_of_tiled [⟨rMean, p0⟩] S512x144.size (by rfl) y
theorem cover0_3 (p0 : Vec F S512x48 .f32) (y : S512x48.Idx) :
    ∃ pc ∈ ([⟨rIn, p0⟩] : List (View.Piece (Elt F) S512x48 .f32)), y ∈ pc.1.set :=
  View.cover_of_tiled [⟨rIn, p0⟩] S512x48.size (by rfl) y

/-! ## The body's triple -/

set_option maxHeartbeats 4000000 in
/-- The body, on whole staging buffers with the inputs at `x0`, `x1` and the outputs at anything, returns with the
    inputs as they were and the outputs at `out0_2 x0`, `out0_3 x1`. (It also loads each output buffer before it
    overwrites it; the loaded value is not used.) -/
theorem sound_kernel (c : Dev nD) (E : Set ℕ) (i : grid0.Coords) (arg1 : Memref sig .tc .vmem S512x48 .f32) (harg1 : arg1.IsWhole) (arg2 : Memref sig .tc .vmem S512x48 .f32) (harg2 : arg2.IsWhole)
    (arg3 : Memref sig .tc .vmem S512x144 .f32) (harg3 : arg3.IsWhole) (arg4 : Memref sig .tc .vmem S512x48 .f32) (harg4 : arg4.IsWhole)
    (x0 : Vec F S512x48 .f32) (x1 : Vec F S512x48 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1)) -∗ K ⟨⟩))
      ⊢ wp frame (wpE (defs₀ (F := F)) Variants.none c none) E (cc0__so3_kernel i arg1 harg1 arg2 harg2 arg3 harg3 arg4 harg4) K := by
  simp only [cc0__so3_kernel_eq_skeleton]; unfold cc0__so3_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0_2 _)
  iexists _; isplitr
  swap; · iexact H3
  ipureintro
  try dsimp only
  exact View.read_writes_eq_canon _ _ _ (cover0_3 _)

/-! ## The pipeline's proof data -/

/-- On core `c`: the arrays as the region finds them; after the body at point `t` each input buffer still at its
    block, the mean buffer at `out0_2` of the first input's block and the log-variance buffer at `out0_3` of the
    second's; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; every array of the region ends at what the
    proof data assembles (an input as found, an output overwritten block by block with what the body left), and
    every other unscoped buffer as the two reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.FrameIdeal.lean ====
/-
  The frame run of `KernelIdeal`'s @main, written against the library's launch theorem for one region between two
  stretches of host operations.

  @main is: ten host operations (the first 48 columns of the argument re-laid as three 16-column planes side by
  side, and the last 48 columns sliced off), ONE pallas_call on a grid of 512 points, and two reshapes of its results.
  At every point the body reads the whole 512x48 blocks of its two inputs and overwrites the whole 512x144 and
  512x48 blocks of its two outputs, so after the body an output's staging buffer holds ONE piece: the body's pure
  payload of the input block. The run therefore ends with each output array assembled from those per-point
  pieces, every other buffer as the host operations leave it, and the argument array untouched.
-/
import proofs.«159265_j83631603187719_2_alg».proof.Proof.Gen.KernelIdeal.Launch
import proofs.«159265_j83631603187719_2_alg».proof.Proof.Gen.KernelIdeal.Skeleton
import proofs.«159265_j83631603187719_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch memory after the ten host operations. -/
abbrev V0 (c : Dev nD) : Valuation τ sig (Elt F) := StableHlo.after (List.flatten [hostOps0]) (fun b => m (c, b))
/-- The same, read at a TensorCore buffer. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first stretch of host operations, the region, and the region's continuation: the two reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch only the region's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's four arrays: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- No host operation before the region writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- Nor does a reshape after it: the argument array ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`: rows `512 t … 512 t + 511` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block when the body starts, at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument array is no array of the region and is not scoped, so the run's post has it as the reshapes after
    the region leave it: as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## What the body leaves in each output window's buffer -/

/-- The whole 512x48 block and the whole 512x144 block as rectangles. -/
abbrev rIn : Rect S512x48 := Rect.unit (s := S512x48) ![0, 0] S512x48.size inb_S512x48_S512x48_0_0
abbrev rMean : Rect S512x144 := Rect.unit (s := S512x144) ![0, 0] S512x144.size inb_S512x144_S512x144_0_0

/-- The nine rotation entries of every row and gaussian of a 512x48 block of packed axis parameters, laid out
    row-major as 512x144: the body's arithmetic as one pure term of the loaded block. -/
def meanOf (v0 : Vec F S512x48 .f32) : FVec F S512x144 .f32 :=
  k0_pay1 (k0_pay5 v0) (k0_pay6 v0) (k0_pay7 v0) (k0_pay8 v0) (k0_pay10 v0) (k0_pay11 v0) (k0_pay13 v0) (k0_pay17 v0)
    (k0_pay18 v0) (k0_pay19 v0) (k0_pay20 v0) (k0_pay21 v0) (k0_pay22 v0) (k0_pay23 v0)

/-- The mean window's buffer after the body: one piece, the whole block. -/
def out0_2 (x0 : Vec F S512x48 .f32) : Vec F S512x144 .f32 :=
  View.canon [⟨rMean, meanOf (View.ld x0 rIn)⟩]
/-- The log-variance window's buffer after the body: one piece, the whole block. -/
def out0_3 (x1 : Vec F S512x48 .f32) : Vec F S512x48 .f32 :=
  View.canon [⟨rIn, k0_pay2 (View.ld x1 rIn)⟩]

theorem cover0_2 (p0 : Vec F S512x144 .f32) (y : S512x144.Idx) :
    ∃ pc ∈ ([⟨rMean, p0⟩] : List (View.Piece (Elt F) S512x144 .f32)), y ∈ pc.1.set :=
  View.cover_of_tiled [⟨rMean, p0⟩] S512x144.size (by rfl) y
theorem cover0_3 (p0 : Vec F S512x48 .f32) (y : S512x48.Idx) :
    ∃ pc ∈ ([⟨rIn, p0⟩] : List (View.Piece (Elt F) S512x48 .f32)), y ∈ pc.1.set :=
  View.cover_of_tiled [⟨rIn, p0⟩] S512x48.size (by rfl) y

/-! ## The body's triple -/

set_option maxHeartbeats 4000000 in
/-- The body, on whole staging buffers with the inputs at `x0`, `x1` and the outputs at anything, returns with the
    inputs as they were and the outputs at `out0_2 x0`, `out0_3 x1`. (It also loads each output buffer before it
    overwrites it; the loaded value is not used.) -/
theorem sound_kernel (c : Dev nD) (E : Set ℕ) (i : grid0.Coords) (arg1 : Memref sig .tc .vmem S512x48 .f32) (harg1 : arg1.IsWhole) (arg2 : Memref sig .tc .vmem S512x48 .f32) (harg2 : arg2.IsWhole)
    (arg3 : Memref sig .tc .vmem S512x144 .f32) (harg3 : arg3.IsWhole) (arg4 : Memref sig .tc .vmem S512x48 .f32) (harg4 : arg4.IsWhole)
    (x0 : Vec F S512x48 .f32) (x1 : Vec F S512x48 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1)) -∗ K ⟨⟩))
      ⊢ wp frame (wpE (defs₀ (F := F)) Variants.none c none) E (cc0__so3_kernel i arg1 harg1 arg2 harg2 arg3 harg3 arg4 harg4) K := by
  simp only [cc0__so3_kernel_eq_skeleton]; unfold cc0__so3_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0_2 _)
  iexists _; isplitr
  swap; · iexact H3
  ipureintro
  try dsimp only
  exact View.read_writes_eq_canon _ _ _ (cover0_3 _)

/-! ## The pipeline's proof data -/

/-- On core `c`: the arrays as the region finds them; after the body at point `t` each input buffer still at its
    block, the mean buffer at `out0_2` of the first input's block and the log-variance buffer at `out0_3` of the
    second's; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; every array of the region ends at what the
    proof data assembles (an input as found, an output overwritten block by block with what the body left), and
    every other unscoped buffer as the two reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Rodrigues.lean ====
/-
  The algebra that joins the two programs, on the extended reals.

  For a skew-symmetric matrix `A` with rows `[0, a, b]`, `[-a, 0, c]`, `[-b, -c, 0]` the matrix
  `I + s₁ A + s₂ A²` has the nine closed-form entries
      1 - s₂ (θ² - c²)    s₁ a - s₂ bc       s₁ b + s₂ ac
      -s₁ a - s₂ bc       1 - s₂ (θ² - b²)   s₁ c - s₂ ab
      -s₁ b + s₂ ac       -s₁ c - s₂ ab      1 - s₂ (θ² - a²)          with θ² = a² + b² + c²,
  because `A² = w wᵀ - θ² I` for `w = (-c, b, -a)`. Here `a`, `b`, `c` are REAL (finite inputs), so
  `θ² - c² = a² + b²` is exact; the two coefficients `s₁`, `s₂` may be ANY extended reals: each entry uses only
  `x · 0 = 0`, `0 + x = x`, `x - y = x + (-y)` and `x · (-y) = -(x · y)`, which hold at the infinities too.
  The unit `u`, the zero `o` and the identity's entries `d j k` are parameters (the programs spell them as float
  literals and as a converted comparison of two index grids); the identity is stated under `u = 1`, `o = 0`,
  `d j k = [j = k]`.
-/
import Idealize.ShloMosaic.PureOps.Ideal
import Idealize.ShloMosaic.PureOps.Ideal.Laws

noncomputable section

namespace Cert.Rodrigues

/-- The skew matrix of `(a, b, c)`, its zero entries spelt `o`. -/
def skew (o a b c : EReal) : Fin 3 → Fin 3 → EReal :=
  ![![o, a, b], ![-a, o, c], ![-b, -c, o]]

/-- Entry `(j, k)` of `I + s₁ A + s₂ A²`, with the product `A²` as the sum over the contracted index, in the
    order the reference computes it: the identity's entry plus `s₁ A`, then plus `s₂ A²`. -/
def viaSquare (d : Fin 3 → Fin 3 → EReal) (o s1 s2 a b c : EReal) (j k : Fin 3) : EReal :=
  (d j k + s1 * skew o a b c j k) + s2 * ∑ l : Fin 3, skew o a b c j l * skew o a b c l k

/-- The nine closed-form entries, as the kernel computes them (a negated coefficient is `o - s₁`). -/
def closedForm (u o s1 s2 a b c : EReal) : Fin 3 → Fin 3 → EReal :=
  ![![u - s2 * (((a * a + b * b) + c * c) - c * c), s1 * a - s2 * (b * c), s1 * b + s2 * (a * c)],
    ![(o - s1) * a - s2 * (b * c), u - s2 * (((a * a + b * b) + c * c) - b * b), s1 * c - s2 * (a * b)],
    ![(o - s1) * b + s2 * (a * c), (o - s1) * c - s2 * (a * b), u - s2 * (((a * a + b * b) + c * c) - a * a)]]

/-- Subtracting `s · x` is adding `s · y` when the real `y` is `-x`. -/
theorem sub_mul_coe (u s : EReal) (x y : ℝ) (h : y = -x) : u - s * (x : EReal) = u + s * (y : EReal) := by
  subst h
  rw [EReal.coe_neg, mul_neg, sub_eq_add_neg]

/-- Adding `s · x` is adding `s · y` when the reals agree. -/
theorem add_mul_coe (u s : EReal) (x y : ℝ) (h : y = x) : u + s * (x : EReal) = u + s * (y : EReal) := by
  subst h; rfl

/-- A product with a negated real is the negated product. -/
theorem mul_coe_neg (s : EReal) (r : ℝ) : s * ((-r : ℝ) : EReal) = -(s * (r : EReal)) := by
  rw [EReal.coe_neg, mul_neg]

/-- The closed form IS `I + s₁ A + s₂ A²`, entry by entry, for real `a`, `b`, `c` and any coefficients. -/
theorem closedForm_eq (d : Fin 3 → Fin 3 → EReal) (u o s1 s2 : EReal) (ra rb rc : ℝ) (hu : u = 1) (ho : o = 0)
    (hd : ∀ j k : Fin 3, d j k = if j = k then (1 : EReal) else 0) (j k : Fin 3) :
    closedForm u o s1 s2 ra rb rc j k = viaSquare d o s1 s2 ra rb rc j k := by
  subst hu ho
  unfold viaSquare
  rw [hd]
  fin_cases j <;> fin_cases k
  all_goals
    simp only [closedForm, skew, Fin.sum_univ_three, Matrix.cons_val_zero, Matrix.cons_val_one,
      Matrix.cons_val_two, Matrix.head_cons, Matrix.tail_cons, Fin.zero_eta, Fin.mk_one, Fin.reduceFinMk,
      Fin.isValue, if_true, if_false, Fin.reduceEq, mul_zero, zero_mul, add_zero, zero_add, zero_sub, neg_mul, mul_neg,
      ← EReal.coe_mul, ← EReal.coe_add, ← EReal.coe_neg, ← EReal.coe_sub]
  all_goals
    first
    | exact sub_mul_coe _ _ _ _ (by ring)
    | (rw [mul_coe_neg s1]; exact sub_mul_coe _ _ _ _ (by ring))
    | (rw [mul_coe_neg s1]; exact add_mul_coe _ _ _ _ (by ring))

end Cert.Rodrigues

end
-- ==== Proof.Spec.lean ====
/-
  The two results as scalar functions of the argument's entries, on the extended reals.

  Row `R` of the argument holds, for each of 16 gaussians `n`, the axis parameters `(a, b, c)` at columns
  `3n, 3n+1, 3n+2` and three log-variance logits at columns `48 + 3n + q`.
  With `θ² = a² + b² + c²`, the rotation is `I + s₁(θ²) A + s₂(θ²) A²`, where for `θ² < 1e-8` (the f32 literal) the
  coefficients are the truncated series `1 - θ²/6`, `1/2 - θ²/24`, and otherwise `sin t / t`, `(1 - cos t) / t²`
  with `t = √θ²` (the selection replaces `θ²` by `1` under the root when it is small). Both programs compute
  these coefficients by the same operations on the same literals, so they are kept as they are and never evaluated.
  The log-variance is `5.4 σ(x) - 9.2` (f32 literals), `σ` the logistic function `1 / (1 + e⁻ˣ)`.
-/
import Idealize.ShloMosaic.PureOps.Ideal
import Idealize.ShloMosaic.PureOps.Ideal.Laws
import Idealize.ShloMosaic.Lib.ValueIdx
import proofs.«159265_j83631603187719_2_alg».proof.Proof.Rodrigues

noncomputable section

namespace Cert.Spec

open Idealize.ShloMosaic Idealize.ShloMosaic.ValueIdx

/-- `θ² = a² + b² + c²`, associated as both programs add it. -/
def thetaSq (a b c : EReal) : EReal := (a * a + b * b) + c * c

/-- The small-angle test `θ² < 1e-8`. -/
def isSmall (θ : EReal) : BitVec 1 := Ideal.cmp .olt θ (Ideal.ofBits .f32 0x322BCC77#32)

/-- `θ²`, or `1` when it is small: the argument of the root and the second coefficient's denominator. -/
def safeSq (θ : EReal) : EReal := Scalar.select (isSmall θ) (Ideal.ofBits .f32 0x3F800000#32) θ

/-- The coefficient of `A`: `1 - θ²/6` when small, else `sin t / t`. -/
def coef1 (θ : EReal) : EReal :=
  Scalar.select (isSmall θ) (Ideal.ofBits .f32 0x3F800000#32 - Ideal.div θ (Ideal.ofBits .f32 0x40C00000#32))
    (Ideal.div (Ideal.sin (Ideal.sqrt (safeSq θ))) (Ideal.sqrt (safeSq θ)))

/-- The coefficient of `A²`: `1/2 - θ²/24` when small, else `(1 - cos t) / t²`. -/
def coef2 (θ : EReal) : EReal :=
  Scalar.select (isSmall θ) (Ideal.ofBits .f32 0x3F000000#32 - Ideal.div θ (Ideal.ofBits .f32 0x41C00000#32))
    (Ideal.div (Ideal.ofBits .f32 0x3F800000#32 - Ideal.cos (Ideal.sqrt (safeSq θ))) (safeSq θ))

/-- The log-variance of a logit. -/
def logvar (x : EReal) : EReal :=
  Ideal.ofBits .f32 0x40ACCCCD#32 * Ideal.logistic x - Ideal.ofBits .f32 0x41133333#32

/-- The f32 literals `1.0` and `0.0`, as both programs spell them, and their values. -/
def unit : EReal := Ideal.ofBits .f32 0x3F800000#32
def zero : EReal := Ideal.ofBits .f32 0x00000000#32
theorem unit_eq : unit = 1 := by unfold unit; simp [Ideal.ofBits, Ideal.ieee, -EReal.coe_mul]; norm_num
theorem zero_eq : zero = 0 := Ideal.ofBits_zero_f32

/-- Entry `(j, k)` of the rotation of the axis parameters `(a, b, c)`, in closed form. -/
def meanEntry (a b c : EReal) (j k : Fin 3) : EReal :=
  Cert.Rodrigues.closedForm unit zero (coef1 (thetaSq a b c)) (coef2 (thetaSq a b c)) a b c j k

/-- Axis parameter `q` (`a`, `b` or `c`) of gaussian `n` in row `R` of the argument: column `3n + q`. -/
def axis (z : (⟨2, ![262144, 96]⟩ : Shape).Idx → EReal) (R : Fin 262144) (n : Fin 16) (q : Fin 3) : EReal :=
  z (ix2 R (⟨3 * n.val + q.val, by have := n.isLt; have := q.isLt; omega⟩ : Fin 96))

/-- The rotations of a row, flattened: column `9n + 3j + k` is entry `(j, k)` of gaussian `n`'s rotation. -/
def meanFlat (z : (⟨2, ![262144, 96]⟩ : Shape).Idx → EReal) : (⟨2, ![262144, 144]⟩ : Shape).Idx → EReal := fun i =>
  meanEntry (axis z (i 0) ⟨(i 1).val / 9, by have h : (i 1).val < 144 := (i 1).isLt; omega⟩ 0) (axis z (i 0) ⟨(i 1).val / 9, by have h : (i 1).val < 144 := (i 1).isLt; omega⟩ 1)
    (axis z (i 0) ⟨(i 1).val / 9, by have h : (i 1).val < 144 := (i 1).isLt; omega⟩ 2)
    ⟨(i 1).val % 9 / 3, by omega⟩ ⟨(i 1).val % 3, by omega⟩

/-- The log-variances of a row, flattened: column `q` is the log-variance of the logit at column `48 + q`. -/
def logvarFlat (z : (⟨2, ![262144, 96]⟩ : Shape).Idx → EReal) : (⟨2, ![262144, 48]⟩ : Shape).Idx → EReal := fun i =>
  logvar (z (ix2 (i 0) (⟨48 + (i 1).val, by have h : (i 1).val < 48 := (i 1).isLt; omega⟩ : Fin 96)))

/-- Column `9n + 3j + k` of the flattened rotations is entry `(j, k)` of gaussian `n`'s rotation. -/
theorem meanFlat_apply (z : (⟨2, ![262144, 96]⟩ : Shape).Idx → EReal) (R : Fin 262144) (n : Fin 16) (j k : Fin 3) (col : Fin 144)
    (hcol : col.val = 9 * n.val + 3 * j.val + k.val) :
    meanFlat z (ix2 R col) = meanEntry (axis z R n 0) (axis z R n 1) (axis z R n 2) j k := by
  have hn := n.isLt; have hj := j.isLt; have hk := k.isLt
  have e1 : (⟨col.val / 9, by omega⟩ : Fin 16) = n := Fin.ext (by show col.val / 9 = n.val; omega)
  have e2 : (⟨col.val % 9 / 3, by omega⟩ : Fin 3) = j := Fin.ext (by show col.val % 9 / 3 = j.val; omega)
  have e3 : (⟨col.val % 3, by omega⟩ : Fin 3) = k := Fin.ext (by show col.val % 3 = k.val; omega)
  show meanEntry (axis z R ⟨col.val / 9, _⟩ 0) (axis z R ⟨col.val / 9, _⟩ 1) (axis z R ⟨col.val / 9, _⟩ 2) ⟨col.val % 9 / 3, _⟩ ⟨col.val % 3, _⟩ = _
  rw [e1, e2, e3]

end Cert.Spec

end
-- ==== Proof.Payload.lean ====
/-
  The kernel body's two payloads read at an index, at the ideal instance.

  The mean payload of a 512x48 block `v` is a 512x144 block: the nine closed-form entries, each a 512x16 plane
  (one value per row and gaussian), joined along a new last axis into 512x16x9 and flattened. So column
  `9n + q` of row `r` is plane `q` at `(r, n)`, and each plane is pointwise arithmetic of the three column groups
  `a = v[:, 0:16]`, `b = v[:, 16:32]`, `c = v[:, 32:48]`. The log-variance payload is pointwise.
-/
import proofs.«159265_j83631603187719_2_alg».proof.Proof.FrameIdeal
import proofs.«159265_j83631603187719_2_alg».proof.Proof.Rodrigues
import proofs.«159265_j83631603187719_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## Nine 512x16 planes, each given a unit last axis, joined along it and flattened to 512x144:
column `9n + q` of row `r` is plane `q` at `(r, n)`. One lemma per plane. -/

theorem plane0_apply {α : Type} (p0 p1 p2 p3 p4 p5 p6 p7 p8 : S512x16.Idx → α)
    (hc1 : S512x16.ShapeCasts S512x16x1)
    (hcat : Shape.Concatenates [S512x16x1, S512x16x1, S512x16x1, S512x16x1, S512x16x1, S512x16x1, S512x16x1, S512x16x1, S512x16x1] S512x16x9 2)
    (hc2 : S512x16x9.ShapeCasts S512x144) (r : Fin 512) (n : Fin 16) (col : Fin 144)
    (hcol : col.val = 9 * n.val + 0) :
    shapeCast S512x144 (concatenate S512x16x9 2 [⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] hcat) hc2 (ix2 r col) = p0 (ix2 r n) := by
  have hr := r.isLt; have hn := n.isLt
  refine (shapeCast_apply _ hc2 (ix2 r col) (ix3 r n (⟨0, by decide⟩ : Fin 9)) (by
    rw [Shape.rowMajor_val_three, Shape.rowMajor_val_two]
    show (r.val * 16 + n.val) * 9 + 0 = r.val * 144 + col.val
    omega)).trans ?_
  have key := concatenate_apply_piece (t := S512x16x9) (2 : Fin 3) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))
    (show Shape.Concatenates (List.map (·.1) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))) S512x16x9 2 from hcat)
    (ix3 r n (⟨0, by decide⟩ : Fin 9)) 0 (by simp only [List.length_cons, List.length_nil]; omega) S512x16x1 (shapeCast S512x16x1 p0 hc1) rfl rfl 0 (by rfl) (ix3 r n (0 : Fin 1))
    (fun b hb => by
      match b with
      | ⟨0, _⟩ => rfl
      | ⟨1, _⟩ => rfl
      | ⟨2, _⟩ => exact absurd rfl hb) (by rfl)
  refine key.trans ?_
  exact shapeCast_apply _ hc1 (ix3 r n (0 : Fin 1)) (ix2 r n) (by
    rw [Shape.rowMajor_val_three, Shape.rowMajor_val_two]
    show r.val * 16 + n.val = (r.val * 16 + n.val) * 1 + 0
    omega)

theorem plane1_apply {α : Type} (p0 p1 p2 p3 p4 p5 p6 p7 p8 : S512x16.Idx → α)
    (hc1 : S512x16.ShapeCasts S512x16x1)
    (hcat : Shape.Concatenates [S512x16x1, S512x16x1, S512x16x1, S512x16x1, S512x16x1, S512x16x1, S512x16x1, S512x16x1, S512x16x1] S512x16x9 2)
    (hc2 : S512x16x9.ShapeCasts S512x144) (r : Fin 512) (n : Fin 16) (col : Fin 144)
    (hcol : col.val = 9 * n.val + 1) :
    shapeCast S512x144 (concatenate S512x16x9 2 [⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] hcat) hc2 (ix2 r col) = p1 (ix2 r n) := by
  have hr := r.isLt; have hn := n.isLt
  refine (shapeCast_apply _ hc2 (ix2 r col) (ix3 r n (⟨1, by decide⟩ : Fin 9)) (by
    rw [Shape.rowMajor_val_three, Shape.rowMajor_val_two]
    show (r.val * 16 + n.val) * 9 + 1 = r.val * 144 + col.val
    omega)).trans ?_
  have key := concatenate_apply_piece (t := S512x16x9) (2 : Fin 3) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))
    (show Shape.Concatenates (List.map (·.1) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))) S512x16x9 2 from hcat)
    (ix3 r n (⟨1, by decide⟩ : Fin 9)) 1 (by simp only [List.length_cons, List.length_nil]; omega) S512x16x1 (shapeCast S512x16x1 p1 hc1) rfl rfl 1 (by rfl) (ix3 r n (0 : Fin 1))
    (fun b hb => by
      match b with
      | ⟨0, _⟩ => rfl
      | ⟨1, _⟩ => rfl
      | ⟨2, _⟩ => exact absurd rfl hb) (by rfl)
  refine key.trans ?_
  exact shapeCast_apply _ hc1 (ix3 r n (0 : Fin 1)) (ix2 r n) (by
    rw [Shape.rowMajor_val_three, Shape.rowMajor_val_two]
    show r.val * 16 + n.val = (r.val * 16 + n.val) * 1 + 0
    omega)

theorem plane2_apply {α : Type} (p0 p1 p2 p3 p4 p5 p6 p7 p8 : S512x16.Idx → α)
    (hc1 : S512x16.ShapeCasts S512x16x1)
    (hcat : Shape.Concatenates [S512x16x1, S512x16x1, S512x16x1, S512x16x1, S512x16x1, S512x16x1, S512x16x1, S512x16x1, S512x16x1] S512x16x9 2)
    (hc2 : S512x16x9.ShapeCasts S512x144) (r : Fin 512) (n : Fin 16) (col : Fin 144)
    (hcol : col.val = 9 * n.val + 2) :
    shapeCast S512x144 (concatenate S512x16x9 2 [⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] hcat) hc2 (ix2 r col) = p2 (ix2 r n) := by
  have hr := r.isLt; have hn := n.isLt
  refine (shapeCast_apply _ hc2 (ix2 r col) (ix3 r n (⟨2, by decide⟩ : Fin 9)) (by
    rw [Shape.rowMajor_val_three, Shape.rowMajor_val_two]
    show (r.val * 16 + n.val) * 9 + 2 = r.val * 144 + col.val
    omega)).trans ?_
  have key := concatenate_apply_piece (t := S512x16x9) (2 : Fin 3) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))
    (show Shape.Concatenates (List.map (·.1) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))) S512x16x9 2 from hcat)
    (ix3 r n (⟨2, by decide⟩ : Fin 9)) 2 (by simp only [List.length_cons, List.length_nil]; omega) S512x16x1 (shapeCast S512x16x1 p2 hc1) rfl rfl 2 (by rfl) (ix3 r n (0 : Fin 1))
    (fun b hb => by
      match b with
      | ⟨0, _⟩ => rfl
      | ⟨1, _⟩ => rfl
      | ⟨2, _⟩ => exact absurd rfl hb) (by rfl)
  refine key.trans ?_
  exact shapeCast_apply _ hc1 (ix3 r n (0 : Fin 1)) (ix2 r n) (by
    rw [Shape.rowMajor_val_three, Shape.rowMajor_val_two]
    show r.val * 16 + n.val = (r.val * 16 + n.val) * 1 + 0
    omega)

theorem plane3_apply {α : Type} (p0 p1 p2 p3 p4 p5 p6 p7 p8 : S512x16.Idx → α)
    (hc1 : S512x16.ShapeCasts S512x16x1)
    (hcat : Shape.Concatenates [S512x16x1, S512x16x1, S512x16x1, S512x16x1, S512x16x1, S512x16x1, S512x16x1, S512x16x1, S512x16x1] S512x16x9 2)
    (hc2 : S512x16x9.ShapeCasts S512x144) (r : Fin 512) (n : Fin 16) (col : Fin 144)
    (hcol : col.val = 9 * n.val + 3) :
    shapeCast S512x144 (concatenate S512x16x9 2 [⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] hcat) hc2 (ix2 r col) = p3 (ix2 r n) := by
  have hr := r.isLt; have hn := n.isLt
  refine (shapeCast_apply _ hc2 (ix2 r col) (ix3 r n (⟨3, by decide⟩ : Fin 9)) (by
    rw [Shape.rowMajor_val_three, Shape.rowMajor_val_two]
    show (r.val * 16 + n.val) * 9 + 3 = r.val * 144 + col.val
    omega)).trans ?_
  have key := concatenate_apply_piece (t := S512x16x9) (2 : Fin 3) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))
    (show Shape.Concatenates (List.map (·.1) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))) S512x16x9 2 from hcat)
    (ix3 r n (⟨3, by decide⟩ : Fin 9)) 3 (by simp only [List.length_cons, List.length_nil]; omega) S512x16x1 (shapeCast S512x16x1 p3 hc1) rfl rfl 3 (by rfl) (ix3 r n (0 : Fin 1))
    (fun b hb => by
      match b with
      | ⟨0, _⟩ => rfl
      | ⟨1, _⟩ => rfl
      | ⟨2, _⟩ => exact absurd rfl hb) (by rfl)
  refine key.trans ?_
  exact shapeCast_apply _ hc1 (ix3 r n (0 : Fin 1)) (ix2 r n) (by
    rw [Shape.rowMajor_val_three, Shape.rowMajor_val_two]
    show r.val * 16 + n.val = (r.val * 16 + n.val) * 1 + 0
    omega)

theorem plane4_apply {α : Type} (p0 p1 p2 p3 p4 p5 p6 p7 p8 : S512x16.Idx → α)
    (hc1 : S512x16.ShapeCasts S512x16x1)
    (hcat : Shape.Concatenates [S512x16x1, S512x16x1, S512x16x1, S512x16x1, S512x16x1, S512x16x1, S512x16x1, S512x16x1, S512x16x1] S512x16x9 2)
    (hc2 : S512x16x9.ShapeCasts S512x144) (r : Fin 512) (n : Fin 16) (col : Fin 144)
    (hcol : col.val = 9 * n.val + 4) :
    shapeCast S512x144 (concatenate S512x16x9 2 [⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] hcat) hc2 (ix2 r col) = p4 (ix2 r n) := by
  have hr := r.isLt; have hn := n.isLt
  refine (shapeCast_apply _ hc2 (ix2 r col) (ix3 r n (⟨4, by decide⟩ : Fin 9)) (by
    rw [Shape.rowMajor_val_three, Shape.rowMajor_val_two]
    show (r.val * 16 + n.val) * 9 + 4 = r.val * 144 + col.val
    omega)).trans ?_
  have key := concatenate_apply_piece (t := S512x16x9) (2 : Fin 3) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))
    (show Shape.Concatenates (List.map (·.1) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))) S512x16x9 2 from hcat)
    (ix3 r n (⟨4, by decide⟩ : Fin 9)) 4 (by simp only [List.length_cons, List.length_nil]; omega) S512x16x1 (shapeCast S512x16x1 p4 hc1) rfl rfl 4 (by rfl) (ix3 r n (0 : Fin 1))
    (fun b hb => by
      match b with
      | ⟨0, _⟩ => rfl
      | ⟨1, _⟩ => rfl
      | ⟨2, _⟩ => exact absurd rfl hb) (by rfl)
  refine key.trans ?_
  exact shapeCast_apply _ hc1 (ix3 r n (0 : Fin 1)) (ix2 r n) (by
    rw [Shape.rowMajor_val_three, Shape.rowMajor_val_two]
    show r.val * 16 + n.val = (r.val * 16 + n.val) * 1 + 0
    omega)

theorem plane5_apply {α : Type} (p0 p1 p2 p3 p4 p5 p6 p7 p8 : S512x16.Idx → α)
    (hc1 : S512x16.ShapeCasts S512x16x1)
    (hcat : Shape.Concatenates [S512x16x1, S512x16x1, S512x16x1, S512x16x1, S512x16x1, S512x16x1, S512x16x1, S512x16x1, S512x16x1] S512x16x9 2)
    (hc2 : S512x16x9.ShapeCasts S512x144) (r : Fin 512) (n : Fin 16) (col : Fin 144)
    (hcol : col.val = 9 * n.val + 5) :
    shapeCast S512x144 (concatenate S512x16x9 2 [⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] hcat) hc2 (ix2 r col) = p5 (ix2 r n) := by
  have hr := r.isLt; have hn := n.isLt
  refine (shapeCast_apply _ hc2 (ix2 r col) (ix3 r n (⟨5, by decide⟩ : Fin 9)) (by
    rw [Shape.rowMajor_val_three, Shape.rowMajor_val_two]
    show (r.val * 16 + n.val) * 9 + 5 = r.val * 144 + col.val
    omega)).trans ?_
  have key := concatenate_apply_piece (t := S512x16x9) (2 : Fin 3) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))
    (show Shape.Concatenates (List.map (·.1) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))) S512x16x9 2 from hcat)
    (ix3 r n (⟨5, by decide⟩ : Fin 9)) 5 (by simp only [List.length_cons, List.length_nil]; omega) S512x16x1 (shapeCast S512x16x1 p5 hc1) rfl rfl 5 (by rfl) (ix3 r n (0 : Fin 1))
    (fun b hb => by
      match b with
      | ⟨0, _⟩ => rfl
      | ⟨1, _⟩ => rfl
      | ⟨2, _⟩ => exact absurd rfl hb) (by rfl)
  refine key.trans ?_
  exact shapeCast_apply _ hc1 (ix3 r n (0 : Fin 1)) (ix2 r n) (by
    rw [Shape.rowMajor_val_three, Shape.rowMajor_val_two]
    show r.val * 16 + n.val = (r.val * 16 + n.val) * 1 + 0
    omega)

theorem plane6_apply {α : Type} (p0 p1 p2 p3 p4 p5 p6 p7 p8 : S512x16.Idx → α)
    (hc1 : S512x16.ShapeCasts S512x16x1)
    (hcat : Shape.Concatenates [S512x16x1, S512x16x1, S512x16x1, S512x16x1, S512x16x1, S512x16x1, S512x16x1, S512x16x1, S512x16x1] S512x16x9 2)
    (hc2 : S512x16x9.ShapeCasts S512x144) (r : Fin 512) (n : Fin 16) (col : Fin 144)
    (hcol : col.val = 9 * n.val + 6) :
    shapeCast S512x144 (concatenate S512x16x9 2 [⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] hcat) hc2 (ix2 r col) = p6 (ix2 r n) := by
  have hr := r.isLt; have hn := n.isLt
  refine (shapeCast_apply _ hc2 (ix2 r col) (ix3 r n (⟨6, by decide⟩ : Fin 9)) (by
    rw [Shape.rowMajor_val_three, Shape.rowMajor_val_two]
    show (r.val * 16 + n.val) * 9 + 6 = r.val * 144 + col.val
    omega)).trans ?_
  have key := concatenate_apply_piece (t := S512x16x9) (2 : Fin 3) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))
    (show Shape.Concatenates (List.map (·.1) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))) S512x16x9 2 from hcat)
    (ix3 r n (⟨6, by decide⟩ : Fin 9)) 6 (by simp only [List.length_cons, List.length_nil]; omega) S512x16x1 (shapeCast S512x16x1 p6 hc1) rfl rfl 6 (by rfl) (ix3 r n (0 : Fin 1))
    (fun b hb => by
      match b with
      | ⟨0, _⟩ => rfl
      | ⟨1, _⟩ => rfl
      | ⟨2, _⟩ => exact absurd rfl hb) (by rfl)
  refine key.trans ?_
  exact shapeCast_apply _ hc1 (ix3 r n (0 : Fin 1)) (ix2 r n) (by
    rw [Shape.rowMajor_val_three, Shape.rowMajor_val_two]
    show r.val * 16 + n.val = (r.val * 16 + n.val) * 1 + 0
    omega)

theorem plane7_apply {α : Type} (p0 p1 p2 p3 p4 p5 p6 p7 p8 : S512x16.Idx → α)
    (hc1 : S512x16.ShapeCasts S512x16x1)
    (hcat : Shape.Concatenates [S512x16x1, S512x16x1, S512x16x1, S512x16x1, S512x16x1, S512x16x1, S512x16x1, S512x16x1, S512x16x1] S512x16x9 2)
    (hc2 : S512x16x9.ShapeCasts S512x144) (r : Fin 512) (n : Fin 16) (col : Fin 144)
    (hcol : col.val = 9 * n.val + 7) :
    shapeCast S512x144 (concatenate S512x16x9 2 [⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] hcat) hc2 (ix2 r col) = p7 (ix2 r n) := by
  have hr := r.isLt; have hn := n.isLt
  refine (shapeCast_apply _ hc2 (ix2 r col) (ix3 r n (⟨7, by decide⟩ : Fin 9)) (by
    rw [Shape.rowMajor_val_three, Shape.rowMajor_val_two]
    show (r.val * 16 + n.val) * 9 + 7 = r.val * 144 + col.val
    omega)).trans ?_
  have key := concatenate_apply_piece (t := S512x16x9) (2 : Fin 3) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))
    (show Shape.Concatenates (List.map (·.1) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))) S512x16x9 2 from hcat)
    (ix3 r n (⟨7, by decide⟩ : Fin 9)) 7 (by simp only [List.length_cons, List.length_nil]; omega) S512x16x1 (shapeCast S512x16x1 p7 hc1) rfl rfl 7 (by rfl) (ix3 r n (0 : Fin 1))
    (fun b hb => by
      match b with
      | ⟨0, _⟩ => rfl
      | ⟨1, _⟩ => rfl
      | ⟨2, _⟩ => exact absurd rfl hb) (by rfl)
  refine key.trans ?_
  exact shapeCast_apply _ hc1 (ix3 r n (0 : Fin 1)) (ix2 r n) (by
    rw [Shape.rowMajor_val_three, Shape.rowMajor_val_two]
    show r.val * 16 + n.val = (r.val * 16 + n.val) * 1 + 0
    omega)

theorem plane8_apply {α : Type} (p0 p1 p2 p3 p4 p5 p6 p7 p8 : S512x16.Idx → α)
    (hc1 : S512x16.ShapeCasts S512x16x1)
    (hcat : Shape.Concatenates [S512x16x1, S512x16x1, S512x16x1, S512x16x1, S512x16x1, S512x16x1, S512x16x1, S512x16x1, S512x16x1] S512x16x9 2)
    (hc2 : S512x16x9.ShapeCasts S512x144) (r : Fin 512) (n : Fin 16) (col : Fin 144)
    (hcol : col.val = 9 * n.val + 8) :
    shapeCast S512x144 (concatenate S512x16x9 2 [⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] hcat) hc2 (ix2 r col) = p8 (ix2 r n) := by
  have hr := r.isLt; have hn := n.isLt
  refine (shapeCast_apply _ hc2 (ix2 r col) (ix3 r n (⟨8, by decide⟩ : Fin 9)) (by
    rw [Shape.rowMajor_val_three, Shape.rowMajor_val_two]
    show (r.val * 16 + n.val) * 9 + 8 = r.val * 144 + col.val
    omega)).trans ?_
  have key := concatenate_apply_piece (t := S512x16x9) (2 : Fin 3) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))
    (show Shape.Concatenates (List.map (·.1) ([⟨S512x16x1, shapeCast S512x16x1 p0 hc1⟩, ⟨S512x16x1, shapeCast S512x16x1 p1 hc1⟩, ⟨S512x16x1, shapeCast S512x16x1 p2 hc1⟩, ⟨S512x16x1, shapeCast S512x16x1 p3 hc1⟩, ⟨S512x16x1, shapeCast S512x16x1 p4 hc1⟩, ⟨S512x16x1, shapeCast S512x16x1 p5 hc1⟩, ⟨S512x16x1, shapeCast S512x16x1 p6 hc1⟩, ⟨S512x16x1, shapeCast S512x16x1 p7 hc1⟩, ⟨S512x16x1, shapeCast S512x16x1 p8 hc1⟩] : List ((s : Shape) × (s.Idx → α)))) S512x16x9 2 from hcat)
    (ix3 r n (⟨8, by decide⟩ : Fin 9)) 8 (by simp only [List.length_cons, List.length_nil]; omega) S512x16x1 (shapeCast S512x16x1 p8 hc1) rfl rfl 8 (by rfl) (ix3 r n (0 : Fin 1))
    (fun b hb => by
      match b with
      | ⟨0, _⟩ => rfl
      | ⟨1, _⟩ => rfl
      | ⟨2, _⟩ => exact absurd rfl hb) (by rfl)
  refine key.trans ?_
  exact shapeCast_apply _ hc1 (ix3 r n (0 : Fin 1)) (ix2 r n) (by
    rw [Shape.rowMajor_val_three, Shape.rowMajor_val_two]
    show r.val * 16 + n.val = (r.val * 16 + n.val) * 1 + 0
    omega)

/-! ## The three column groups of the loaded block -/

/-- `a`: columns 0–15. -/
theorem colA_apply (v0 : Vec Ideal S512x48 .f32) (r : Fin 512) (n : Fin 16) :
    k0_pay4 (F := Ideal) v0 (ix2 r n) = v0 (ix2 r (⟨n.val, by have := n.isLt; omega⟩ : Fin 48)) := by
  unfold k0_pay4 k0_pay3
  refine (extractStridedSlice_apply _ _ _ (ix2 r n) (ix2 r (⟨n.val, by have := n.isLt; omega⟩ : Fin 48)) (fun a => by
    match a with
    | ⟨0, _⟩ => show r.val = 0 + r.val; omega
    | ⟨1, _⟩ => show n.val = 0 + n.val; omega)).trans ?_
  exact congrFun (shapeCast_self v0 _) _
/-- `b`: columns 16–31. -/
theorem colB_apply (v0 : Vec Ideal S512x48 .f32) (r : Fin 512) (n : Fin 16) :
    k0_pay5 (F := Ideal) v0 (ix2 r n) = v0 (ix2 r (⟨16 + n.val, by have := n.isLt; omega⟩ : Fin 48)) := by
  unfold k0_pay5 k0_pay3
  refine (extractStridedSlice_apply _ _ _ (ix2 r n) (ix2 r (⟨16 + n.val, by have := n.isLt; omega⟩ : Fin 48)) (fun a => by
    match a with
    | ⟨0, _⟩ => show r.val = 0 + r.val; omega
    | ⟨1, _⟩ => show 16 + n.val = 16 + n.val; omega)).trans ?_
  exact congrFun (shapeCast_self v0 _) _
/-- `c`: columns 32–47. -/
theorem colC_apply (v0 : Vec Ideal S512x48 .f32) (r : Fin 512) (n : Fin 16) :
    k0_pay6 (F := Ideal) v0 (ix2 r n) = v0 (ix2 r (⟨32 + n.val, by have := n.isLt; omega⟩ : Fin 48)) := by
  unfold k0_pay6 k0_pay3
  refine (extractStridedSlice_apply _ _ _ (ix2 r n) (ix2 r (⟨32 + n.val, by have := n.isLt; omega⟩ : Fin 48)) (fun a => by
    match a with
    | ⟨0, _⟩ => show r.val = 0 + r.val; omega
    | ⟨1, _⟩ => show 32 + n.val = 32 + n.val; omega)).trans ?_
  exact congrFun (shapeCast_self v0 _) _

/-! ## The payloads against the specification -/

/-- Column `9n + 3j + k` of row `r` of the mean payload is entry `(j, k)` of the closed form, at the row's and
    gaussian's `(a, b, c)` (here still as the column groups' values). -/
theorem meanOf_apply_groups (v0 : Vec Ideal S512x48 .f32) (r : Fin 512) (n : Fin 16) (j k : Fin 3) (col : Fin 144)
    (hcol : col.val = 9 * n.val + (3 * j.val + k.val)) :
    meanOf (F := Ideal) v0 (ix2 r col) =
      Cert.Spec.meanEntry (k0_pay4 (F := Ideal) v0 (ix2 r n)) (k0_pay5 (F := Ideal) v0 (ix2 r n)) (k0_pay6 (F := Ideal) v0 (ix2 r n)) j k := by
  unfold meanOf k0_pay1
  match j, k with
  | ⟨0, _⟩, ⟨0, _⟩ => exact (plane0_apply _ _ _ _ _ _ _ _ _ _ _ _ r n col hcol).trans rfl
  | ⟨0, _⟩, ⟨1, _⟩ => exact (plane1_apply _ _ _ _ _ _ _ _ _ _ _ _ r n col hcol).trans rfl
  | ⟨0, _⟩, ⟨2, _⟩ => exact (plane2_apply _ _ _ _ _ _ _ _ _ _ _ _ r n col hcol).trans rfl
  | ⟨1, _⟩, ⟨0, _⟩ => exact (plane3_apply _ _ _ _ _ _ _ _ _ _ _ _ r n col hcol).trans rfl
  | ⟨1, _⟩, ⟨1, _⟩ => exact (plane4_apply _ _ _ _ _ _ _ _ _ _ _ _ r n col hcol).trans rfl
  | ⟨1, _⟩, ⟨2, _⟩ => exact (plane5_apply _ _ _ _ _ _ _ _ _ _ _ _ r n col hcol).trans rfl
  | ⟨2, _⟩, ⟨0, _⟩ => exact (plane6_apply _ _ _ _ _ _ _ _ _ _ _ _ r n col hcol).trans rfl
  | ⟨2, _⟩, ⟨1, _⟩ => exact (plane7_apply _ _ _ _ _ _ _ _ _ _ _ _ r n col hcol).trans rfl
  | ⟨2, _⟩, ⟨2, _⟩ => exact (plane8_apply _ _ _ _ _ _ _ _ _ _ _ _ r n col hcol).trans rfl

/-- The same with `(a, b, c)` read off the block: columns `n`, `16 + n`, `32 + n` of row `r`. -/
theorem meanOf_apply (v0 : Vec Ideal S512x48 .f32) (r : Fin 512) (n : Fin 16) (j k : Fin 3) (col : Fin 144)
    (hcol : col.val = 9 * n.val + (3 * j.val + k.val)) (a b c : EReal)
    (ha : v0 (ix2 r (⟨n.val, by have := n.isLt; omega⟩ : Fin 48)) = a)
    (hb : v0 (ix2 r (⟨16 + n.val, by have := n.isLt; omega⟩ : Fin 48)) = b)
    (hc : v0 (ix2 r (⟨32 + n.val, by have := n.isLt; omega⟩ : Fin 48)) = c) :
    meanOf (F := Ideal) v0 (ix2 r col) =
      Cert.Spec.meanEntry a b c j k := by
  rw [meanOf_apply_groups v0 r n j k col hcol, colA_apply, colB_apply, colC_apply, ha, hb, hc]

/-- The log-variance payload is pointwise. -/
theorem logvarOf_apply (v : Vec Ideal S512x48 .f32) (y : S512x48.Idx) :
    k0_pay2 (F := Ideal) v y = Cert.Spec.logvar (v y) := by
  unfold k0_pay2
  have e := congrFun (shapeCast_self v shapeCasts_S512x48_S512x48) y
  show Ideal.ofBits .f32 0x40ACCCCD#32 * Ideal.logistic (shapeCast S512x48 v _ y) - Ideal.ofBits .f32 0x41133333#32 = _
  rw [e]
  rfl

end Cert.KernelIdeal.Hand

end
-- ==== Proof.KernelValue.lean ====
/-
  What the kernel program computes, at the ideal instance.

  The region stages two arrays the host operations before it made from the argument `z` (262144x96):
  the packed axis parameters, whose column `16 p + n` is `z`'s column `3 n + p` (the three planes `a`, `b`, `c`
  side by side), and the logits, `z`'s columns 48–95. Grid point `t` handles rows `512 t … 512 t + 511` of every
  array, so what it writes back is block `t` of ONE whole-array function of `z` — the flattened rotations
  (`Spec.meanFlat`) and the flattened log-variances (`Spec.logvarFlat`) — and the 512 blocks tile the arrays.
  The two reshapes after the region then give the results their 4- and 3-dimensional shapes.
-/
import proofs.«159265_j83631603187719_2_alg».proof.Proof.Payload
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The two staged arrays as terms of the argument -/

/-- The logits: the argument's columns 48–95. -/
theorem V_v9_eq (c : Dev nD) : (V m c main_v9 : S262144x48.Idx → EReal) =
    extractStridedSlice S262144x48 ![0, 48] (m ((c : Thread nD τ).loc main_arg0)) slices_S262144x96_S262144x48_0_48 := by
  show StableHlo.after hostOps0 (fun b => m (c, b)) (Proc.devRef .tc main_v9) = _
  after_results_simp

/-- The packed axis parameters: the three planes of the first 48 columns read as 16 triples, side by side. -/
theorem V_v8_eq (c : Dev nD) : (V m c main_v8 : S262144x48.Idx → EReal) =
    (concatenate S262144x48 1 [⟨S262144x16, shapeCast S262144x16 (extractStridedSlice S262144x16x1 ![0, 0, 0] (shapeCast S262144x16x3 (extractStridedSlice S262144x48 ![0, 0] (m ((c : Thread nD τ).loc main_arg0)) slices_S262144x96_S262144x48_0_0) shapeCasts_S262144x48_S262144x16x3) slices_S262144x16x3_S262144x16x1_0_0_0) shapeCasts_S262144x16x1_S262144x16⟩, ⟨S262144x16, shapeCast S262144x16 (extractStridedSlice S262144x16x1 ![0, 0, 1] (shapeCast S262144x16x3 (extractStridedSlice S262144x48 ![0, 0] (m ((c : Thread nD τ).loc main_arg0)) slices_S262144x96_S262144x48_0_0) shapeCasts_S262144x48_S262144x16x3) slices_S262144x16x3_S262144x16x1_0_0_1) shapeCasts_S262144x16x1_S262144x16⟩, ⟨S262144x16, shapeCast S262144x16 (extractStridedSlice S262144x16x1 ![0, 0, 2] (shapeCast S262144x16x3 (extractStridedSlice S262144x48 ![0, 0] (m ((c : Thread nD τ).loc main_arg0)) slices_S262144x96_S262144x48_0_0) shapeCasts_S262144x48_S262144x16x3) slices_S262144x16x3_S262144x16x1_0_0_2) shapeCasts_S262144x16x1_S262144x16⟩] concatenates_S262144x16_S262144x16_S262144x16_S262144x48_d1) := by
  show StableHlo.after hostOps0 (fun b => m (c, b)) (Proc.devRef .tc main_v8) = _
  after_results
  rfl

/-! ## The same at an index -/

theorem V_v9_apply (c : Dev nD) (R : Fin 262144) (q : Fin 48) :
    (V m c main_v9 : S262144x48.Idx → EReal) (ix2 R q) = (m ((c : Thread nD τ).loc main_arg0) : S262144x96.Idx → EReal) (ix2 R (⟨48 + q.val, by have := q.isLt; omega⟩ : Fin 96)) := by
  rw [V_v9_eq]
  exact extractStridedSlice_apply _ _ slices_S262144x96_S262144x48_0_48 (ix2 R q) (ix2 R (⟨48 + q.val, by have := q.isLt; omega⟩ : Fin 96)) (fun a => by
    match a with
    | ⟨0, _⟩ => show R.val = 0 + R.val; omega
    | ⟨1, _⟩ => show 48 + q.val = 48 + q.val; omega)

/-! Column `16 p + n` of the packed array is the argument's column `3 n + p`: one lemma per plane `p`. -/

theorem V_v8_plane0 (c : Dev nD) (R : Fin 262144) (n : Fin 16) (q : Fin 48) (hq : q.val = 0 + n.val) :
    (V m c main_v8 : S262144x48.Idx → EReal) (ix2 R q) = Cert.Spec.axis (m ((c : Thread nD τ).loc main_arg0)) R n (0 : Fin 3) := by
  have hR := R.isLt; have hn := n.isLt
  rw [V_v8_eq]
  have key := concatenate_apply_piece (t := S262144x48) (1 : Fin 2) ([⟨S262144x16, shapeCast S262144x16 (extractStridedSlice S262144x16x1 ![0, 0, 0] (shapeCast S262144x16x3 (extractStridedSlice S262144x48 ![0, 0] (m ((c : Thread nD τ).loc main_arg0)) slices_S262144x96_S262144x48_0_0) shapeCasts_S262144x48_S262144x16x3) slices_S262144x16x3_S262144x16x1_0_0_0) shapeCasts_S262144x16x1_S262144x16⟩, ⟨S262144x16, shapeCast S262144x16 (extractStridedSlice S262144x16x1 ![0, 0, 1] (shapeCast S262144x16x3 (extractStridedSlice S262144x48 ![0, 0] (m ((c : Thread nD τ).loc main_arg0)) slices_S262144x96_S262144x48_0_0) shapeCasts_S262144x48_S262144x16x3) slices_S262144x16x3_S262144x16x1_0_0_1) shapeCasts_S262144x16x1_S262144x16⟩, ⟨S262144x16, shapeCast S262144x16 (extractStridedSlice S262144x16x1 ![0, 0, 2] (shapeCast S262144x16x3 (extractStridedSlice S262144x48 ![0, 0] (m ((c : Thread nD τ).loc main_arg0)) slices_S262144x96_S262144x48_0_0) shapeCasts_S262144x48_S262144x16x3) slices_S262144x16x3_S262144x16x1_0_0_2) shapeCasts_S262144x16x1_S262144x16⟩] : List ((s : Shape) × (s.Idx → EReal)))
    (show Shape.Concatenates (List.map (·.1) ([⟨S262144x16, shapeCast S262144x16 (extractStridedSlice S262144x16x1 ![0, 0, 0] (shapeCast S262144x16x3 (extractStridedSlice S262144x48 ![0, 0] (m ((c : Thread nD τ).loc main_arg0)) slices_S262144x96_S262144x48_0_0) shapeCasts_S262144x48_S262144x16x3) slices_S262144x16x3_S262144x16x1_0_0_0) shapeCasts_S262144x16x1_S262144x16⟩, ⟨S262144x16, shapeCast S262144x16 (extractStridedSlice S262144x16x1 ![0, 0, 1] (shapeCast S262144x16x3 (extractStridedSlice S262144x48 ![0, 0] (m ((c : Thread nD τ).loc main_arg0)) slices_S262144x96_S262144x48_0_0) shapeCasts_S262144x48_S262144x16x3) slices_S262144x16x3_S262144x16x1_0_0_1) shapeCasts_S262144x16x1_S262144x16⟩, ⟨S262144x16, shapeCast S262144x16 (extractStridedSlice S262144x16x1 ![0, 0, 2] (shapeCast S262144x16x3 (extractStridedSlice S262144x48 ![0, 0] (m ((c : Thread nD τ).loc main_arg0)) slices_S262144x96_S262144x48_0_0) shapeCasts_S262144x48_S262144x16x3) slices_S262144x16x3_S262144x16x1_0_0_2) shapeCasts_S262144x16x1_S262144x16⟩] : List ((s : Shape) × (s.Idx → EReal)))) S262144x48 1 from concatenates_S262144x16_S262144x16_S262144x16_S262144x48_d1)
    (ix2 R q) 0 (by simp only [List.length_cons, List.length_nil]; omega) S262144x16 (shapeCast S262144x16 (extractStridedSlice S262144x16x1 ![0, 0, 0] (shapeCast S262144x16x3 (extractStridedSlice S262144x48 ![0, 0] (m ((c : Thread nD τ).loc main_arg0)) slices_S262144x96_S262144x48_0_0) shapeCasts_S262144x48_S262144x16x3) slices_S262144x16x3_S262144x16x1_0_0_0) shapeCasts_S262144x16x1_S262144x16) rfl rfl 0 (by rfl) (ix2 R n)
    (fun b hb => by
      match b with
      | ⟨0, _⟩ => rfl
      | ⟨1, _⟩ => exact absurd rfl hb) (by show 0 + n.val = q.val; omega)
  refine key.trans ?_
  refine (shapeCast_apply _ shapeCasts_S262144x16x1_S262144x16 (ix2 R n) (ix3 R n (0 : Fin 1)) (by
    rw [Shape.rowMajor_val_three, Shape.rowMajor_val_two]
    show (R.val * 16 + n.val) * 1 + 0 = R.val * 16 + n.val
    omega)).trans ?_
  refine (extractStridedSlice_apply _ _ slices_S262144x16x3_S262144x16x1_0_0_0 (ix3 R n (0 : Fin 1)) (ix3 R n (0 : Fin 3)) (fun a => by
    match a with
    | ⟨0, _⟩ => show R.val = 0 + R.val; omega
    | ⟨1, _⟩ => show n.val = 0 + n.val; omega
    | ⟨2, _⟩ => show 0 = 0 + 0; omega)).trans ?_
  refine (shapeCast_apply _ shapeCasts_S262144x48_S262144x16x3 (ix3 R n (0 : Fin 3)) (ix2 R (⟨3 * n.val + 0, by omega⟩ : Fin 48)) (by
    rw [Shape.rowMajor_val_three, Shape.rowMajor_val_two]
    show R.val * 48 + (3 * n.val + 0) = (R.val * 16 + n.val) * 3 + 0
    omega)).trans ?_
  refine (extractStridedSlice_apply _ _ slices_S262144x96_S262144x48_0_0 (ix2 R (⟨3 * n.val + 0, by omega⟩ : Fin 48)) (ix2 R (⟨3 * n.val + 0, by omega⟩ : Fin 96)) (fun a => by
    match a with
    | ⟨0, _⟩ => show R.val = 0 + R.val; omega
    | ⟨1, _⟩ => show 3 * n.val + 0 = 0 + (3 * n.val + 0); omega)).trans ?_
  rfl

theorem V_v8_plane1 (c : Dev nD) (R : Fin 262144) (n : Fin 16) (q : Fin 48) (hq : q.val = 16 + n.val) :
    (V m c main_v8 : S262144x48.Idx → EReal) (ix2 R q) = Cert.Spec.axis (m ((c : Thread nD τ).loc main_arg0)) R n (1 : Fin 3) := by
  have hR := R.isLt; have hn := n.isLt
  rw [V_v8_eq]
  have key := concatenate_apply_piece (t := S262144x48) (1 : Fin 2) ([⟨S262144x16, shapeCast S262144x16 (extractStridedSlice S262144x16x1 ![0, 0, 0] (shapeCast S262144x16x3 (extractStridedSlice S262144x48 ![0, 0] (m ((c : Thread nD τ).loc main_arg0)) slices_S262144x96_S262144x48_0_0) shapeCasts_S262144x48_S262144x16x3) slices_S262144x16x3_S262144x16x1_0_0_0) shapeCasts_S262144x16x1_S262144x16⟩, ⟨S262144x16, shapeCast S262144x16 (extractStridedSlice S262144x16x1 ![0, 0, 1] (shapeCast S262144x16x3 (extractStridedSlice S262144x48 ![0, 0] (m ((c : Thread nD τ).loc main_arg0)) slices_S262144x96_S262144x48_0_0) shapeCasts_S262144x48_S262144x16x3) slices_S262144x16x3_S262144x16x1_0_0_1) shapeCasts_S262144x16x1_S262144x16⟩, ⟨S262144x16, shapeCast S262144x16 (extractStridedSlice S262144x16x1 ![0, 0, 2] (shapeCast S262144x16x3 (extractStridedSlice S262144x48 ![0, 0] (m ((c : Thread nD τ).loc main_arg0)) slices_S262144x96_S262144x48_0_0) shapeCasts_S262144x48_S262144x16x3) slices_S262144x16x3_S262144x16x1_0_0_2) shapeCasts_S262144x16x1_S262144x16⟩] : List ((s : Shape) × (s.Idx → EReal)))
    (show Shape.Concatenates (List.map (·.1) ([⟨S262144x16, shapeCast S262144x16 (extractStridedSlice S262144x16x1 ![0, 0, 0] (shapeCast S262144x16x3 (extractStridedSlice S262144x48 ![0, 0] (m ((c : Thread nD τ).loc main_arg0)) slices_S262144x96_S262144x48_0_0) shapeCasts_S262144x48_S262144x16x3) slices_S262144x16x3_S262144x16x1_0_0_0) shapeCasts_S262144x16x1_S262144x16⟩, ⟨S262144x16, shapeCast S262144x16 (extractStridedSlice S262144x16x1 ![0, 0, 1] (shapeCast S262144x16x3 (extractStridedSlice S262144x48 ![0, 0] (m ((c : Thread nD τ).loc main_arg0)) slices_S262144x96_S262144x48_0_0) shapeCasts_S262144x48_S262144x16x3) slices_S262144x16x3_S262144x16x1_0_0_1) shapeCasts_S262144x16x1_S262144x16⟩, ⟨S262144x16, shapeCast S262144x16 (extractStridedSlice S262144x16x1 ![0, 0, 2] (shapeCast S262144x16x3 (extractStridedSlice S262144x48 ![0, 0] (m ((c : Thread nD τ).loc main_arg0)) slices_S262144x96_S262144x48_0_0) shapeCasts_S262144x48_S262144x16x3) slices_S262144x16x3_S262144x16x1_0_0_2) shapeCasts_S262144x16x1_S262144x16⟩] : List ((s : Shape) × (s.Idx → EReal)))) S262144x48 1 from concatenates_S262144x16_S262144x16_S262144x16_S262144x48_d1)
    (ix2 R q) 1 (by simp only [List.length_cons, List.length_nil]; omega) S262144x16 (shapeCast S262144x16 (extractStridedSlice S262144x16x1 ![0, 0, 1] (shapeCast S262144x16x3 (extractStridedSlice S262144x48 ![0, 0] (m ((c : Thread nD τ).loc main_arg0)) slices_S262144x96_S262144x48_0_0) shapeCasts_S262144x48_S262144x16x3) slices_S262144x16x3_S262144x16x1_0_0_1) shapeCasts_S262144x16x1_S262144x16) rfl rfl 16 (by rfl) (ix2 R n)
    (fun b hb => by
      match b with
      | ⟨0, _⟩ => rfl
      | ⟨1, _⟩ => exact absurd rfl hb) (by show 16 + n.val = q.val; omega)
  refine key.trans ?_
  refine (shapeCast_apply _ shapeCasts_S262144x16x1_S262144x16 (ix2 R n) (ix3 R n (0 : Fin 1)) (by
    rw [Shape.rowMajor_val_three, Shape.rowMajor_val_two]
    show (R.val * 16 + n.val) * 1 + 0 = R.val * 16 + n.val
    omega)).trans ?_
  refine (extractStridedSlice_apply _ _ slices_S262144x16x3_S262144x16x1_0_0_1 (ix3 R n (0 : Fin 1)) (ix3 R n (1 : Fin 3)) (fun a => by
    match a with
    | ⟨0, _⟩ => show R.val = 0 + R.val; omega
    | ⟨1, _⟩ => show n.val = 0 + n.val; omega
    | ⟨2, _⟩ => show 1 = 1 + 0; omega)).trans ?_
  refine (shapeCast_apply _ shapeCasts_S262144x48_S262144x16x3 (ix3 R n (1 : Fin 3)) (ix2 R (⟨3 * n.val + 1, by omega⟩ : Fin 48)) (by
    rw [Shape.rowMajor_val_three, Shape.rowMajor_val_two]
    show R.val * 48 + (3 * n.val + 1) = (R.val * 16 + n.val) * 3 + 1
    omega)).trans ?_
  refine (extractStridedSlice_apply _ _ slices_S262144x96_S262144x48_0_0 (ix2 R (⟨3 * n.val + 1, by omega⟩ : Fin 48)) (ix2 R (⟨3 * n.val + 1, by omega⟩ : Fin 96)) (fun a => by
    match a with
    | ⟨0, _⟩ => show R.val = 0 + R.val; omega
    | ⟨1, _⟩ => show 3 * n.val + 1 = 0 + (3 * n.val + 1); omega)).trans ?_
  rfl

theorem V_v8_plane2 (c : Dev nD) (R : Fin 262144) (n : Fin 16) (q : Fin 48) (hq : q.val = 32 + n.val) :
    (V m c main_v8 : S262144x48.Idx → EReal) (ix2 R q) = Cert.Spec.axis (m ((c : Thread nD τ).loc main_arg0)) R n (2 : Fin 3) := by
  have hR := R.isLt; have hn := n.isLt
  rw [V_v8_eq]
  have key := concatenate_apply_piece (t := S262144x48) (1 : Fin 2) ([⟨S262144x16, shapeCast S262144x16 (extractStridedSlice S262144x16x1 ![0, 0, 0] (shapeCast S262144x16x3 (extractStridedSlice S262144x48 ![0, 0] (m ((c : Thread nD τ).loc main_arg0)) slices_S262144x96_S262144x48_0_0) shapeCasts_S262144x48_S262144x16x3) slices_S262144x16x3_S262144x16x1_0_0_0) shapeCasts_S262144x16x1_S262144x16⟩, ⟨S262144x16, shapeCast S262144x16 (extractStridedSlice S262144x16x1 ![0, 0, 1] (shapeCast S262144x16x3 (extractStridedSlice S262144x48 ![0, 0] (m ((c : Thread nD τ).loc main_arg0)) slices_S262144x96_S262144x48_0_0) shapeCasts_S262144x48_S262144x16x3) slices_S262144x16x3_S262144x16x1_0_0_1) shapeCasts_S262144x16x1_S262144x16⟩, ⟨S262144x16, shapeCast S262144x16 (extractStridedSlice S262144x16x1 ![0, 0, 2] (shapeCast S262144x16x3 (extractStridedSlice S262144x48 ![0, 0] (m ((c : Thread nD τ).loc main_arg0)) slices_S262144x96_S262144x48_0_0) shapeCasts_S262144x48_S262144x16x3) slices_S262144x16x3_S262144x16x1_0_0_2) shapeCasts_S262144x16x1_S262144x16⟩] : List ((s : Shape) × (s.Idx → EReal)))
    (show Shape.Concatenates (List.map (·.1) ([⟨S262144x16, shapeCast S262144x16 (extractStridedSlice S262144x16x1 ![0, 0, 0] (shapeCast S262144x16x3 (extractStridedSlice S262144x48 ![0, 0] (m ((c : Thread nD τ).loc main_arg0)) slices_S262144x96_S262144x48_0_0) shapeCasts_S262144x48_S262144x16x3) slices_S262144x16x3_S262144x16x1_0_0_0) shapeCasts_S262144x16x1_S262144x16⟩, ⟨S262144x16, shapeCast S262144x16 (extractStridedSlice S262144x16x1 ![0, 0, 1] (shapeCast S262144x16x3 (extractStridedSlice S262144x48 ![0, 0] (m ((c : Thread nD τ).loc main_arg0)) slices_S262144x96_S262144x48_0_0) shapeCasts_S262144x48_S262144x16x3) slices_S262144x16x3_S262144x16x1_0_0_1) shapeCasts_S262144x16x1_S262144x16⟩, ⟨S262144x16, shapeCast S262144x16 (extractStridedSlice S262144x16x1 ![0, 0, 2] (shapeCast S262144x16x3 (extractStridedSlice S262144x48 ![0, 0] (m ((c : Thread nD τ).loc main_arg0)) slices_S262144x96_S262144x48_0_0) shapeCasts_S262144x48_S262144x16x3) slices_S262144x16x3_S262144x16x1_0_0_2) shapeCasts_S262144x16x1_S262144x16⟩] : List ((s : Shape) × (s.Idx → EReal)))) S262144x48 1 from concatenates_S262144x16_S262144x16_S262144x16_S262144x48_d1)
    (ix2 R q) 2 (by simp only [List.length_cons, List.length_nil]; omega) S262144x16 (shapeCast S262144x16 (extractStridedSlice S262144x16x1 ![0, 0, 2] (shapeCast S262144x16x3 (extractStridedSlice S262144x48 ![0, 0] (m ((c : Thread nD τ).loc main_arg0)) slices_S262144x96_S262144x48_0_0) shapeCasts_S262144x48_S262144x16x3) slices_S262144x16x3_S262144x16x1_0_0_2) shapeCasts_S262144x16x1_S262144x16) rfl rfl 32 (by rfl) (ix2 R n)
    (fun b hb => by
      match b with
      | ⟨0, _⟩ => rfl
      | ⟨1, _⟩ => exact absurd rfl hb) (by show 32 + n.val = q.val; omega)
  refine key.trans ?_
  refine (shapeCast_apply _ shapeCasts_S262144x16x1_S262144x16 (ix2 R n) (ix3 R n (0 : Fin 1)) (by
    rw [Shape.rowMajor_val_three, Shape.rowMajor_val_two]
    show (R.val * 16 + n.val) * 1 + 0 = R.val * 16 + n.val
    omega)).trans ?_
  refine (extractStridedSlice_apply _ _ slices_S262144x16x3_S262144x16x1_0_0_2 (ix3 R n (0 : Fin 1)) (ix3 R n (2 : Fin 3)) (fun a => by
    match a with
    | ⟨0, _⟩ => show R.val = 0 + R.val; omega
    | ⟨1, _⟩ => show n.val = 0 + n.val; omega
    | ⟨2, _⟩ => show 2 = 2 + 0; omega)).trans ?_
  refine (shapeCast_apply _ shapeCasts_S262144x48_S262144x16x3 (ix3 R n (2 : Fin 3)) (ix2 R (⟨3 * n.val + 2, by omega⟩ : Fin 48)) (by
    rw [Shape.rowMajor_val_three, Shape.rowMajor_val_two]
    show R.val * 48 + (3 * n.val + 2) = (R.val * 16 + n.val) * 3 + 2
    omega)).trans ?_
  refine (extractStridedSlice_apply _ _ slices_S262144x96_S262144x48_0_0 (ix2 R (⟨3 * n.val + 2, by omega⟩ : Fin 48)) (ix2 R (⟨3 * n.val + 2, by omega⟩ : Fin 96)) (fun a => by
    match a with
    | ⟨0, _⟩ => show R.val = 0 + R.val; omega
    | ⟨1, _⟩ => show 3 * n.val + 2 = 0 + (3 * n.val + 2); omega)).trans ?_
  rfl

/-! ## The windows' blocks -/

theorem hz : (![0, 0] : Fin 2 → Nat) = fun _ => 0 := funext fun a => by fin_cases a <;> rfl

/-- At point `t` every window is on block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `r` of the packed array's block at point `t` is row `512 t + r` of the array. -/
theorem iblk0_apply (c : Dev nD) (t : Fin cfg0.N) (r : Fin 512) (q : Fin 48) (R : Fin 262144) (hR : R.val = 512 * t.val + r.val) :
    (iblk m c 0 t : Vec Ideal S512x48 .f32) (ix2 r q) = (V m c main_v8 : S262144x48.Idx → EReal) (ix2 R q) := by
  obtain ⟨e0, e1, -⟩ := idx_facts t
  unfold iblk
  rw [View.read_apply]
  show V m c main_v8 _ = V m c main_v8 _
  congr 1
  funext a
  apply Fin.ext
  match a with
  | ⟨0, _⟩ => show win0_0.index t 0 * 512 + 1 * r.val = R.val; rw [e0, hR]; omega
  | ⟨1, _⟩ => show win0_0.index t 1 * 48 + 1 * q.val = q.val; rw [e1]; omega

/-- The same for the logits' block. -/
theorem iblk1_apply (c : Dev nD) (t : Fin cfg0.N) (r : Fin 512) (q : Fin 48) (R : Fin 262144) (hR : R.val = 512 * t.val + r.val) :
    (iblk m c 1 t : Vec Ideal S512x48 .f32) (ix2 r q) = (V m c main_v9 : S262144x48.Idx → EReal) (ix2 R q) := by
  obtain ⟨-, -, e0, e1, -⟩ := idx_facts t
  unfold iblk
  rw [View.read_apply]
  show V m c main_v9 _ = V m c main_v9 _
  congr 1
  funext a
  apply Fin.ext
  match a with
  | ⟨0, _⟩ => show win0_1.index t 0 * 512 + 1 * r.val = R.val; rw [e0, hR]; omega
  | ⟨1, _⟩ => show win0_1.index t 1 * 48 + 1 * q.val = q.val; rw [e1]; omega

/-! ## What a point writes back is the block of one whole-array function -/

/-- The mean payload of the packed array's block at point `t`, at a block index `y`, is the flattened rotations at
    the array index `I` that `y` is in the block: row `512 t + y₀`, the same column. -/
theorem mean_block_eq (c : Dev nD) (t : Fin cfg0.N) (y : S512x144.Idx) (I : S262144x144.Idx)
    (hI0 : (I 0).val = 512 * t.val + (y 0).val) (hI1 : (I 1).val = (y 1).val) :
    meanOf (F := Ideal) (iblk m c 0 t) y = Cert.Spec.meanFlat (m ((c : Thread nD τ).loc main_arg0)) I := by
  have hy1 : (y 1).val < 144 := (y 1).isLt
  have hI1' : (I 1).val < 144 := (I 1).isLt
  obtain ⟨r, col, rfl⟩ : ∃ (r : Fin 512) (col : Fin 144), y = ix2 r col := ⟨y 0, y 1, eq_ix2 y⟩
  have hcol : col.val = (I 1).val := hI1.symm
  refine (meanOf_apply (iblk m c 0 t) r ⟨(I 1).val / 9, by omega⟩ ⟨(I 1).val % 9 / 3, by omega⟩ ⟨(I 1).val % 3, by omega⟩ col
    (by show col.val = 9 * ((I 1).val / 9) + (3 * ((I 1).val % 9 / 3) + (I 1).val % 3); omega) _ _ _
    ((iblk0_apply m c t r _ (I 0) hI0).trans (V_v8_plane0 m c (I 0) ⟨(I 1).val / 9, by omega⟩ _ (by show (I 1).val / 9 = 0 + (I 1).val / 9; omega)))
    ((iblk0_apply m c t r _ (I 0) hI0).trans (V_v8_plane1 m c (I 0) ⟨(I 1).val / 9, by omega⟩ _ (by show 16 + (I 1).val / 9 = 16 + (I 1).val / 9; omega)))
    ((iblk0_apply m c t r _ (I 0) hI0).trans (V_v8_plane2 m c (I 0) ⟨(I 1).val / 9, by omega⟩ _ (by show 32 + (I 1).val / 9 = 32 + (I 1).val / 9; omega)))).trans ?_
  rfl

/-- The log-variance payload of the logits' block at point `t`, likewise. -/
theorem logvar_block_eq (c : Dev nD) (t : Fin cfg0.N) (y : S512x48.Idx) (I : S262144x48.Idx)
    (hI0 : (I 0).val = 512 * t.val + (y 0).val) (hI1 : (I 1).val = (y 1).val) :
    k0_pay2 (F := Ideal) (iblk m c 1 t) y = Cert.Spec.logvarFlat (m ((c : Thread nD τ).loc main_arg0)) I := by
  obtain ⟨r, q, rfl⟩ : ∃ (r : Fin 512) (q : Fin 48), y = ix2 r q := ⟨y 0, y 1, eq_ix2 y⟩
  obtain rfl : q = (I 1 : Fin 48) := Fin.ext hI1.symm
  refine (logvarOf_apply (iblk m c 1 t) (ix2 r (I 1))).trans ?_
  exact congrArg Cert.Spec.logvar ((iblk1_apply m c t r (I 1) (I 0) hI0).trans (V_v9_apply m c (I 0) (I 1)))

/-- WHAT POINT `t` WRITES BACK into the mean array is block `t` of the flattened rotations. -/
theorem flushed2_eq (c : Dev nD) (t : Fin cfg0.N) :
    (dats m 0 c).flushed 2 t = ((cfg0.win 2).blk t).view.read (Elt Ideal) (Cert.Spec.meanFlat (m ((c : Thread nD τ).loc main_arg0))) := by
  obtain ⟨-, -, -, -, e0, e1, -⟩ := idx_facts t
  show (cfg0.win 2).cut (grid0.coords t) ((dats m 0 c).after 2 t) = _
  rw [after0_2]
  unfold out0_2
  rw [View.canon_unit_zero hz]
  simp only [View.ld_unit_zero (S := S512x48) hz]
  funext y
  refine mean_block_eq m c t y (((cfg0.win 2).blk t).view.emb y) ?_ ?_
  · show win0_2.index t 0 * 512 + 1 * (y 0).val = 512 * t.val + (y 0).val; rw [e0]; omega
  · show win0_2.index t 1 * 144 + 1 * (y 1).val = (y 1).val; rw [e1]; omega

/-- and into the log-variance array block `t` of the flattened log-variances. -/
theorem flushed3_eq (c : Dev nD) (t : Fin cfg0.N) :
    (dats m 0 c).flushed 3 t = ((cfg0.win 3).blk t).view.read (Elt Ideal) (Cert.Spec.logvarFlat (m ((c : Thread nD τ).loc main_arg0))) := by
  obtain ⟨-, -, -, -, -, -, e0, e1⟩ := idx_facts t
  show (cfg0.win 3).cut (grid0.coords t) ((dats m 0 c).after 3 t) = _
  rw [after0_3]
  unfold out0_3
  rw [View.canon_unit_zero hz]
  simp only [View.ld_unit_zero (S := S512x48) hz]
  funext y
  refine logvar_block_eq m c t y (((cfg0.win 3).blk t).view.emb y) ?_ ?_
  · show win0_3.index t 0 * 512 + 1 * (y 0).val = 512 * t.val + (y 0).val; rw [e0]; omega
  · show win0_3.index t 1 * 48 + 1 * (y 1).val = (y 1).val; rw [e1]; omega

/-! ## The blocks tile the arrays -/

theorem mem_blk2 (t : Fin cfg0.N) (i : S262144x144.Idx) :
    i ∈ ((cfg0.win 2).blk t).view.set ↔ ∀ a : Fin 2, win0_2.index t a * S512x144.size a ≤ (i a).val ∧ (i a).val < win0_2.index t a * S512x144.size a + S512x144.size a := by
  show i ∈ ((View.whole main_v10_0).slice (win0_2.rect t)).set ↔ _
  rw [View.set_slice_whole, Rect.mem_set_unit]
  exact Iff.rfl

theorem mem_blk3 (t : Fin cfg0.N) (i : S262144x48.Idx) :
    i ∈ ((cfg0.win 3).blk t).view.set ↔ ∀ a : Fin 2, win0_3.index t a * S512x48.size a ≤ (i a).val ∧ (i a).val < win0_3.index t a * S512x48.size a + S512x48.size a := by
  show i ∈ ((View.whole main_v10_1).slice (win0_3.rect t)).set ↔ _
  rw [View.set_slice_whole, Rect.mem_set_unit]
  exact Iff.rfl

/-- Row `R` of the mean array is in the block of point `R / 512`. -/
theorem cover2 (i : S262144x144.Idx) : ∃ t : Fin cfg0.N, (cfg0.win 2).flush t = true ∧ i ∈ ((cfg0.win 2).blk t).view.set := by
  have h0 : (i 0).val < 262144 := (i 0).isLt
  have h1 : (i 1).val < 144 := (i 1).isLt
  refine ⟨⟨(i 0).val / 512, by rw [show cfg0.N = 512 from N_0]; omega⟩, flush0_2 _, ?_⟩
  obtain ⟨-, -, -, -, e0, e1, -⟩ := idx_facts ⟨(i 0).val / 512, by rw [show cfg0.N = 512 from N_0]; omega⟩
  rw [mem_blk2]
  intro a
  match a with
  | ⟨0, _⟩ => show win0_2.index _ 0 * 512 ≤ (i 0).val ∧ (i 0).val < win0_2.index _ 0 * 512 + 512; rw [e0]; show (i 0).val / 512 * 512 ≤ (i 0).val ∧ (i 0).val < (i 0).val / 512 * 512 + 512; omega
  | ⟨1, _⟩ => show win0_2.index _ 1 * 144 ≤ (i 1).val ∧ (i 1).val < win0_2.index _ 1 * 144 + 144; rw [e1]; omega

theorem cover3 (i : S262144x48.Idx) : ∃ t : Fin cfg0.N, (cfg0.win 3).flush t = true ∧ i ∈ ((cfg0.win 3).blk t).view.set := by
  have h0 : (i 0).val < 262144 := (i 0).isLt
  have h1 : (i 1).val < 48 := (i 1).isLt
  refine ⟨⟨(i 0).val / 512, by rw [show cfg0.N = 512 from N_0]; omega⟩, flush0_3 _, ?_⟩
  obtain ⟨-, -, -, -, -, -, e0, e1⟩ := idx_facts ⟨(i 0).val / 512, by rw [show cfg0.N = 512 from N_0]; omega⟩
  rw [mem_blk3]
  intro a
  match a with
  | ⟨0, _⟩ => show win0_3.index _ 0 * 512 ≤ (i 0).val ∧ (i 0).val < win0_3.index _ 0 * 512 + 512; rw [e0]; show (i 0).val / 512 * 512 ≤ (i 0).val ∧ (i 0).val < (i 0).val / 512 * 512 + 512; omega
  | ⟨1, _⟩ => show win0_3.index _ 1 * 48 ≤ (i 1).val ∧ (i 1).val < win0_3.index _ 1 * 48 + 48; rw [e1]; omega

/-! ## The arrays after the region -/

theorem final2 (c : Dev nD) : (dats m 0 c).arrAt 2 cfg0.N = Cert.Spec.meanFlat (m ((c : Thread nD τ).loc main_arg0)) :=
  (dats m 0 c).arrAt_eq_of_cover 2 (Cert.Spec.meanFlat (m ((c : Thread nD τ).loc main_arg0))) (fun t _ => flushed2_eq m c t) cover2

theorem final3 (c : Dev nD) : (dats m 0 c).arrAt 3 cfg0.N = Cert.Spec.logvarFlat (m ((c : Thread nD τ).loc main_arg0)) :=
  (dats m 0 c).arrAt_eq_of_cover 3 (Cert.Spec.logvarFlat (m ((c : Thread nD τ).loc main_arg0))) (fun t _ => flushed3_eq m c t) cover3

/-! ## The two reshapes after the region, and the run -/

theorem tail_v11 (c : Dev nD) :
    Pipeline.afterTail₀ cfgs (dats m) 0 (V0 m) [hostOps1] c main_v11
      = shapeCast S262144x16x3x3 (Cert.Spec.meanFlat (m ((c : Thread nD τ).loc main_arg0))) shapeCasts_S262144x144_S262144x16x3x3 := by
  unfold Pipeline.afterTail₀
  show StableHlo.after hostOps1 _ (Proc.devRef .tc main_v11) = _
  after_results
  exact congrArg (fun x => shapeCast S262144x16x3x3 x shapeCasts_S262144x144_S262144x16x3x3)
    ((Pipeline.withArrays_arr spec0 launch0.win.arr_inj c (V0 m c) (fun w => (dats m 0 c).arrAt w (cfgs 0).N) 2).trans (final2 m c))

theorem tail_v12 (c : Dev nD) :
    Pipeline.afterTail₀ cfgs (dats m) 0 (V0 m) [hostOps1] c main_v12
      = shapeCast S262144x16x3 (Cert.Spec.logvarFlat (m ((c : Thread nD τ).loc main_arg0))) shapeCasts_S262144x48_S262144x16x3 := by
  unfold Pipeline.afterTail₀
  show StableHlo.after hostOps1 _ (Proc.devRef .tc main_v12) = _
  after_results
  exact congrArg (fun x => shapeCast S262144x16x3 x shapeCasts_S262144x48_S262144x16x3)
    ((Pipeline.withArrays_arr spec0 launch0.win.arr_inj c (V0 m c) (fun w => (dats m 0 c).arrAt w (cfgs 0).N) 3).trans (final3 m c))

/-- The kernel program's run, read: the two results are the reshaped flattened rotations and log-variances of the
    argument, and the argument ends unchanged. -/
theorem run : θ_run defs (onTc (τ := τ) (main (F := Ideal))) ⟨m, fun _ => 0, ρ⟩ fun r => ∀ c : Dev nD,
      r.2.mem ((c.tc : Thread nD τ).loc main_v11) = shapeCast S262144x16x3x3 (Cert.Spec.meanFlat (m ((c : Thread nD τ).loc main_arg0))) shapeCasts_S262144x144_S262144x16x3x3
      ∧ r.2.mem ((c.tc : Thread nD τ).loc main_v12) = shapeCast S262144x16x3 (Cert.Spec.logvarFlat (m ((c : Thread nD τ).loc main_arg0))) shapeCasts_S262144x48_S262144x16x3
      ∧ r.2.mem ((c.tc : Thread nD τ).loc main_arg0) = m ((c.tc : Thread nD τ).loc main_arg0) :=
  (θ_run defs _ _).mono (fun r h c =>
      ⟨((h c).2 main_v11 (Pipeline.mem_restRefs_of main_v11 (by decide) (by decide))).trans (tail_v11 m c),
       ((h c).2 main_v12 (Pipeline.mem_restRefs_of main_v12 (by decide) (by decide))).trans (tail_v12 m c),
       ((h c).2 main_arg0 (Pipeline.mem_restRefs_of main_arg0 (by decide) (by decide))).trans (W_main_arg0 m (dats m) c)⟩)
    (run_main m ρ)

end Cert.KernelIdeal.Hand

end
-- ==== Proof.RefValue.lean ====
/-
  What the reference computes, stage by stage, at an index, at the ideal instance.

  The reference slices the three parameter planes `a`, `b`, `c` out of the argument (column `3n + q` of a row),
  builds the skew matrix `A` of every row and gaussian by joining broadcast planes (zeros, `±a`, `±b`, `±c`), forms
  `θ²`, the small-angle test and the two coefficients, multiplies `A` by itself over the contracted index, and adds
  `I + s₁ A + s₂ A²` with `I` a converted comparison of two index grids. The log-variance is its own short chain.
-/
import proofs.«159265_j83631603187719_2_alg».proof.Proof.Gen.ReferenceIdeal.Read
import proofs.«159265_j83631603187719_2_alg».proof.Proof.Spec
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen Cert.ReferenceIdeal.Read
open Idealize.ShloMosaic Idealize.ShloMosaic.ValueIdx

variable (z : (⟨S262144x96, .f32⟩ : BufTy).Contents (Elt Ideal))

/-! ## The three parameter planes: plane `q` at `(R, n)` is the argument's column `3n + q` of row `R` -/

theorem v3_at (i : S262144x16.Idx) : val_main_v3 (F := Ideal) z i = Cert.Spec.axis z (i 0) (i 1) (0 : Fin 3) := by
  have h0 : (i 0).val < 262144 := (i 0).isLt
  have h1 : (i 1).val < 16 := (i 1).isLt
  rw [val_main_v3_apply, val_main_v2_apply, val_main_v1_apply, val_main_v0_apply]
  unfold Cert.Spec.axis
  congr 1
  funext a
  apply Fin.ext
  match a with
  | ⟨0, _⟩ => dsimp only; show _ = (i 0).val; omega
  | ⟨1, _⟩ => dsimp only; show _ = 3 * (i 1).val + 0; omega

theorem v5_at (i : S262144x16.Idx) : val_main_v5 (F := Ideal) z i = Cert.Spec.axis z (i 0) (i 1) (1 : Fin 3) := by
  have h0 : (i 0).val < 262144 := (i 0).isLt
  have h1 : (i 1).val < 16 := (i 1).isLt
  rw [val_main_v5_apply, val_main_v4_apply, val_main_v1_apply, val_main_v0_apply]
  unfold Cert.Spec.axis
  congr 1
  funext a
  apply Fin.ext
  match a with
  | ⟨0, _⟩ => dsimp only; show _ = (i 0).val; omega
  | ⟨1, _⟩ => dsimp only; show _ = 3 * (i 1).val + 1; omega

theorem v7_at (i : S262144x16.Idx) : val_main_v7 (F := Ideal) z i = Cert.Spec.axis z (i 0) (i 1) (2 : Fin 3) := by
  have h0 : (i 0).val < 262144 := (i 0).isLt
  have h1 : (i 1).val < 16 := (i 1).isLt
  rw [val_main_v7_apply, val_main_v6_apply, val_main_v1_apply, val_main_v0_apply]
  unfold Cert.Spec.axis
  congr 1
  funext a
  apply Fin.ext
  match a with
  | ⟨0, _⟩ => dsimp only; show _ = (i 0).val; omega
  | ⟨1, _⟩ => dsimp only; show _ = 3 * (i 1).val + 2; omega

/-! ## `θ²` and the two coefficients -/

theorem thetaSq_at (i : S262144x16.Idx) :
    val_main_v32 (F := Ideal) z i = Cert.Spec.thetaSq (Cert.Spec.axis z (i 0) (i 1) 0) (Cert.Spec.axis z (i 0) (i 1) 1) (Cert.Spec.axis z (i 0) (i 1) 2) := by
  rw [val_main_v32_apply, val_main_v30_apply, val_main_v28_apply, val_main_v29_apply, val_main_v31_apply, v3_at, v5_at, v7_at]
  rfl

theorem coef1_at (i : S262144x16.Idx) :
    val_main_v44 (F := Ideal) z i = Cert.Spec.coef1 (Cert.Spec.thetaSq (Cert.Spec.axis z (i 0) (i 1) 0) (Cert.Spec.axis z (i 0) (i 1) 1) (Cert.Spec.axis z (i 0) (i 1) 2)) := by
  simp only [val_main_v44_apply, val_main_v34_apply, val_main_v41_apply, val_main_v43_apply, val_main_v42_apply, val_main_v37_apply,
    val_main_v36_apply, val_main_v39_apply, val_main_v33_apply, val_main_cst_0_apply, val_main_v35_apply, val_main_cst_1_apply, val_main_v38_apply, val_main_cst_2_apply, val_main_v40_apply, val_main_cst_3_apply, val_main_v45_apply, val_main_cst_4_apply, val_main_v47_apply, val_main_cst_5_apply, val_main_v50_apply, val_main_cst_6_apply, thetaSq_at]
  rfl

theorem coef2_at (i : S262144x16.Idx) :
    val_main_v53 (F := Ideal) z i = Cert.Spec.coef2 (Cert.Spec.thetaSq (Cert.Spec.axis z (i 0) (i 1) 0) (Cert.Spec.axis z (i 0) (i 1) 1) (Cert.Spec.axis z (i 0) (i 1) 2)) := by
  simp only [val_main_v53_apply, val_main_v34_apply, val_main_v48_apply, val_main_v46_apply, val_main_v52_apply, val_main_v51_apply, val_main_v49_apply,
    val_main_v37_apply, val_main_v36_apply, val_main_v33_apply, val_main_cst_0_apply, val_main_v35_apply, val_main_cst_1_apply, val_main_v38_apply, val_main_cst_2_apply, val_main_v40_apply, val_main_cst_3_apply, val_main_v45_apply, val_main_cst_4_apply, val_main_v47_apply, val_main_cst_5_apply, val_main_v50_apply, val_main_cst_6_apply, thetaSq_at]
  rfl

/-! ## The skew matrix: entry `(j, k)` of row `R`, gaussian `n`, through the two concatenations. One lemma per entry. -/

theorem A_at_00 (R : Fin 262144) (n : Fin 16) :
    val_main_v27 (F := Ideal) z (ix4 R n (0 : Fin 3) (0 : Fin 3)) =
      Cert.Rodrigues.skew Cert.Spec.zero (Cert.Spec.axis z R n 0) (Cert.Spec.axis z R n 1) (Cert.Spec.axis z R n 2) (0 : Fin 3) (0 : Fin 3) := by
  unfold val_main_v27
  refine (concatenate_apply_piece (t := S262144x16x3x3) (2 : Fin 4) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))
    (show Shape.Concatenates (List.map (·.1) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))) S262144x16x3x3 2 from concatenates_S262144x16x1x3_S262144x16x1x3_S262144x16x1x3_S262144x16x3x3_d2)
    (ix4 R n (0 : Fin 3) (0 : Fin 3)) 0 (by simp only [List.length_cons, List.length_nil]; omega) S262144x16x1x3 (val_main_v24 (F := Ideal) z) rfl rfl 0 (by rfl)
    (ix4 R n (0 : Fin 1) (0 : Fin 3))
    (fun b hb => by
      match b with
      | ⟨0, _⟩ => rfl
      | ⟨1, _⟩ => rfl
      | ⟨2, _⟩ => exact absurd rfl hb
      | ⟨3, _⟩ => rfl) (by rfl)).trans ?_
  rw [val_main_v24_apply]
  unfold val_main_v12
  refine (concatenate_apply_piece (t := S262144x16x3) (2 : Fin 3) ([⟨S262144x16x1, val_main_v9 (F := Ideal)⟩, ⟨S262144x16x1, val_main_v10 (F := Ideal) z⟩, ⟨S262144x16x1, val_main_v11 (F := Ideal) z⟩] : List ((s : Shape) × (s.Idx → EReal)))
    (show Shape.Concatenates (List.map (·.1) ([⟨S262144x16x1, val_main_v9 (F := Ideal)⟩, ⟨S262144x16x1, val_main_v10 (F := Ideal) z⟩, ⟨S262144x16x1, val_main_v11 (F := Ideal) z⟩] : List ((s : Shape) × (s.Idx → EReal)))) S262144x16x3 2 from concatenates_S262144x16x1_S262144x16x1_S262144x16x1_S262144x16x3_d2)
    (idx_main_v24 (ix4 R n (0 : Fin 1) (0 : Fin 3))) 0 (by simp only [List.length_cons, List.length_nil]; omega) S262144x16x1 (val_main_v9 (F := Ideal)) rfl rfl 0 (by rfl)
    (ix3 R n (0 : Fin 1))
    (fun b hb => by
      match b with
      | ⟨0, _⟩ => rfl
      | ⟨1, _⟩ => rfl
      | ⟨2, _⟩ => exact absurd rfl hb) (by rfl)).trans ?_
  simp only [val_main_v9_apply, val_main_v8_apply, val_main_cst_apply]
  rfl

theorem A_at_01 (R : Fin 262144) (n : Fin 16) :
    val_main_v27 (F := Ideal) z (ix4 R n (0 : Fin 3) (1 : Fin 3)) =
      Cert.Rodrigues.skew Cert.Spec.zero (Cert.Spec.axis z R n 0) (Cert.Spec.axis z R n 1) (Cert.Spec.axis z R n 2) (0 : Fin 3) (1 : Fin 3) := by
  unfold val_main_v27
  refine (concatenate_apply_piece (t := S262144x16x3x3) (2 : Fin 4) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))
    (show Shape.Concatenates (List.map (·.1) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))) S262144x16x3x3 2 from concatenates_S262144x16x1x3_S262144x16x1x3_S262144x16x1x3_S262144x16x3x3_d2)
    (ix4 R n (0 : Fin 3) (1 : Fin 3)) 0 (by simp only [List.length_cons, List.length_nil]; omega) S262144x16x1x3 (val_main_v24 (F := Ideal) z) rfl rfl 0 (by rfl)
    (ix4 R n (0 : Fin 1) (1 : Fin 3))
    (fun b hb => by
      match b with
      | ⟨0, _⟩ => rfl
      | ⟨1, _⟩ => rfl
      | ⟨2, _⟩ => exact absurd rfl hb
      | ⟨3, _⟩ => rfl) (by rfl)).trans ?_
  rw [val_main_v24_apply]
  unfold val_main_v12
  refine (concatenate_apply_piece (t := S262144x16x3) (2 : Fin 3) ([⟨S262144x16x1, val_main_v9 (F := Ideal)⟩, ⟨S262144x16x1, val_main_v10 (F := Ideal) z⟩, ⟨S262144x16x1, val_main_v11 (F := Ideal) z⟩] : List ((s : Shape) × (s.Idx → EReal)))
    (show Shape.Concatenates (List.map (·.1) ([⟨S262144x16x1, val_main_v9 (F := Ideal)⟩, ⟨S262144x16x1, val_main_v10 (F := Ideal) z⟩, ⟨S262144x16x1, val_main_v11 (F := Ideal) z⟩] : List ((s : Shape) × (s.Idx → EReal)))) S262144x16x3 2 from concatenates_S262144x16x1_S262144x16x1_S262144x16x1_S262144x16x3_d2)
    (idx_main_v24 (ix4 R n (0 : Fin 1) (1 : Fin 3))) 1 (by simp only [List.length_cons, List.length_nil]; omega) S262144x16x1 (val_main_v10 (F := Ideal) z) rfl rfl 1 (by rfl)
    (ix3 R n (0 : Fin 1))
    (fun b hb => by
      match b with
      | ⟨0, _⟩ => rfl
      | ⟨1, _⟩ => rfl
      | ⟨2, _⟩ => exact absurd rfl hb) (by rfl)).trans ?_
  simp only [val_main_v10_apply, v3_at]
  rfl

theorem A_at_02 (R : Fin 262144) (n : Fin 16) :
    val_main_v27 (F := Ideal) z (ix4 R n (0 : Fin 3) (2 : Fin 3)) =
      Cert.Rodrigues.skew Cert.Spec.zero (Cert.Spec.axis z R n 0) (Cert.Spec.axis z R n 1) (Cert.Spec.axis z R n 2) (0 : Fin 3) (2 : Fin 3) := by
  unfold val_main_v27
  refine (concatenate_apply_piece (t := S262144x16x3x3) (2 : Fin 4) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))
    (show Shape.Concatenates (List.map (·.1) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))) S262144x16x3x3 2 from concatenates_S262144x16x1x3_S262144x16x1x3_S262144x16x1x3_S262144x16x3x3_d2)
    (ix4 R n (0 : Fin 3) (2 : Fin 3)) 0 (by simp only [List.length_cons, List.length_nil]; omega) S262144x16x1x3 (val_main_v24 (F := Ideal) z) rfl rfl 0 (by rfl)
    (ix4 R n (0 : Fin 1) (2 : Fin 3))
    (fun b hb => by
      match b with
      | ⟨0, _⟩ => rfl
      | ⟨1, _⟩ => rfl
      | ⟨2, _⟩ => exact absurd rfl hb
      | ⟨3, _⟩ => rfl) (by rfl)).trans ?_
  rw [val_main_v24_apply]
  unfold val_main_v12
  refine (concatenate_apply_piece (t := S262144x16x3) (2 : Fin 3) ([⟨S262144x16x1, val_main_v9 (F := Ideal)⟩, ⟨S262144x16x1, val_main_v10 (F := Ideal) z⟩, ⟨S262144x16x1, val_main_v11 (F := Ideal) z⟩] : List ((s : Shape) × (s.Idx → EReal)))
    (show Shape.Concatenates (List.map (·.1) ([⟨S262144x16x1, val_main_v9 (F := Ideal)⟩, ⟨S262144x16x1, val_main_v10 (F := Ideal) z⟩, ⟨S262144x16x1, val_main_v11 (F := Ideal) z⟩] : List ((s : Shape) × (s.Idx → EReal)))) S262144x16x3 2 from concatenates_S262144x16x1_S262144x16x1_S262144x16x1_S262144x16x3_d2)
    (idx_main_v24 (ix4 R n (0 : Fin 1) (2 : Fin 3))) 2 (by simp only [List.length_cons, List.length_nil]; omega) S262144x16x1 (val_main_v11 (F := Ideal) z) rfl rfl 2 (by rfl)
    (ix3 R n (0 : Fin 1))
    (fun b hb => by
      match b with
      | ⟨0, _⟩ => rfl
      | ⟨1, _⟩ => rfl
      | ⟨2, _⟩ => exact absurd rfl hb) (by rfl)).trans ?_
  simp only [val_main_v11_apply, v5_at]
  rfl

theorem A_at_10 (R : Fin 262144) (n : Fin 16) :
    val_main_v27 (F := Ideal) z (ix4 R n (1 : Fin 3) (0 : Fin 3)) =
      Cert.Rodrigues.skew Cert.Spec.zero (Cert.Spec.axis z R n 0) (Cert.Spec.axis z R n 1) (Cert.Spec.axis z R n 2) (1 : Fin 3) (0 : Fin 3) := by
  unfold val_main_v27
  refine (concatenate_apply_piece (t := S262144x16x3x3) (2 : Fin 4) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))
    (show Shape.Concatenates (List.map (·.1) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))) S262144x16x3x3 2 from concatenates_S262144x16x1x3_S262144x16x1x3_S262144x16x1x3_S262144x16x3x3_d2)
    (ix4 R n (1 : Fin 3) (0 : Fin 3)) 1 (by simp only [List.length_cons, List.length_nil]; omega) S262144x16x1x3 (val_main_v25 (F := Ideal) z) rfl rfl 1 (by rfl)
    (ix4 R n (0 : Fin 1) (0 : Fin 3))
    (fun b hb => by
      match b with
      | ⟨0, _⟩ => rfl
      | ⟨1, _⟩ => rfl
      | ⟨2, _⟩ => exact absurd rfl hb
      | ⟨3, _⟩ => rfl) (by rfl)).trans ?_
  rw [val_main_v25_apply]
  unfold val_main_v17
  refine (concatenate_apply_piece (t := S262144x16x3) (2 : Fin 3) ([⟨S262144x16x1, val_main_v14 (F := Ideal) z⟩, ⟨S262144x16x1, val_main_v15 (F := Ideal)⟩, ⟨S262144x16x1, val_main_v16 (F := Ideal) z⟩] : List ((s : Shape) × (s.Idx → EReal)))
    (show Shape.Concatenates (List.map (·.1) ([⟨S262144x16x1, val_main_v14 (F := Ideal) z⟩, ⟨S262144x16x1, val_main_v15 (F := Ideal)⟩, ⟨S262144x16x1, val_main_v16 (F := Ideal) z⟩] : List ((s : Shape) × (s.Idx → EReal)))) S262144x16x3 2 from concatenates_S262144x16x1_S262144x16x1_S262144x16x1_S262144x16x3_d2)
    (idx_main_v25 (ix4 R n (0 : Fin 1) (0 : Fin 3))) 0 (by simp only [List.length_cons, List.length_nil]; omega) S262144x16x1 (val_main_v14 (F := Ideal) z) rfl rfl 0 (by rfl)
    (ix3 R n (0 : Fin 1))
    (fun b hb => by
      match b with
      | ⟨0, _⟩ => rfl
      | ⟨1, _⟩ => rfl
      | ⟨2, _⟩ => exact absurd rfl hb) (by rfl)).trans ?_
  simp only [val_main_v14_apply, val_main_v13_apply, v3_at]
  rfl

theorem A_at_11 (R : Fin 262144) (n : Fin 16) :
    val_main_v27 (F := Ideal) z (ix4 R n (1 : Fin 3) (1 : Fin 3)) =
      Cert.Rodrigues.skew Cert.Spec.zero (Cert.Spec.axis z R n 0) (Cert.Spec.axis z R n 1) (Cert.Spec.axis z R n 2) (1 : Fin 3) (1 : Fin 3) := by
  unfold val_main_v27
  refine (concatenate_apply_piece (t := S262144x16x3x3) (2 : Fin 4) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))
    (show Shape.Concatenates (List.map (·.1) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))) S262144x16x3x3 2 from concatenates_S262144x16x1x3_S262144x16x1x3_S262144x16x1x3_S262144x16x3x3_d2)
    (ix4 R n (1 : Fin 3) (1 : Fin 3)) 1 (by simp only [List.length_cons, List.length_nil]; omega) S262144x16x1x3 (val_main_v25 (F := Ideal) z) rfl rfl 1 (by rfl)
    (ix4 R n (0 : Fin 1) (1 : Fin 3))
    (fun b hb => by
      match b with
      | ⟨0, _⟩ => rfl
      | ⟨1, _⟩ => rfl
      | ⟨2, _⟩ => exact absurd rfl hb
      | ⟨3, _⟩ => rfl) (by rfl)).trans ?_
  rw [val_main_v25_apply]
  unfold val_main_v17
  refine (concatenate_apply_piece (t := S262144x16x3) (2 : Fin 3) ([⟨S262144x16x1, val_main_v14 (F := Ideal) z⟩, ⟨S262144x16x1, val_main_v15 (F := Ideal)⟩, ⟨S262144x16x1, val_main_v16 (F := Ideal) z⟩] : List ((s : Shape) × (s.Idx → EReal)))
    (show Shape.Concatenates (List.map (·.1) ([⟨S262144x16x1, val_main_v14 (F := Ideal) z⟩, ⟨S262144x16x1, val_main_v15 (F := Ideal)⟩, ⟨S262144x16x1, val_main_v16 (F := Ideal) z⟩] : List ((s : Shape) × (s.Idx → EReal)))) S262144x16x3 2 from concatenates_S262144x16x1_S262144x16x1_S262144x16x1_S262144x16x3_d2)
    (idx_main_v25 (ix4 R n (0 : Fin 1) (1 : Fin 3))) 1 (by simp only [List.length_cons, List.length_nil]; omega) S262144x16x1 (val_main_v15 (F := Ideal)) rfl rfl 1 (by rfl)
    (ix3 R n (0 : Fin 1))
    (fun b hb => by
      match b with
      | ⟨0, _⟩ => rfl
      | ⟨1, _⟩ => rfl
      | ⟨2, _⟩ => exact absurd rfl hb) (by rfl)).trans ?_
  simp only [val_main_v15_apply, val_main_v8_apply, val_main_cst_apply]
  rfl

theorem A_at_12 (R : Fin 262144) (n : Fin 16) :
    val_main_v27 (F := Ideal) z (ix4 R n (1 : Fin 3) (2 : Fin 3)) =
      Cert.Rodrigues.skew Cert.Spec.zero (Cert.Spec.axis z R n 0) (Cert.Spec.axis z R n 1) (Cert.Spec.axis z R n 2) (1 : Fin 3) (2 : Fin 3) := by
  unfold val_main_v27
  refine (concatenate_apply_piece (t := S262144x16x3x3) (2 : Fin 4) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))
    (show Shape.Concatenates (List.map (·.1) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))) S262144x16x3x3 2 from concatenates_S262144x16x1x3_S262144x16x1x3_S262144x16x1x3_S262144x16x3x3_d2)
    (ix4 R n (1 : Fin 3) (2 : Fin 3)) 1 (by simp only [List.length_cons, List.length_nil]; omega) S262144x16x1x3 (val_main_v25 (F := Ideal) z) rfl rfl 1 (by rfl)
    (ix4 R n (0 : Fin 1) (2 : Fin 3))
    (fun b hb => by
      match b with
      | ⟨0, _⟩ => rfl
      | ⟨1, _⟩ => rfl
      | ⟨2, _⟩ => exact absurd rfl hb
      | ⟨3, _⟩ => rfl) (by rfl)).trans ?_
  rw [val_main_v25_apply]
  unfold val_main_v17
  refine (concatenate_apply_piece (t := S262144x16x3) (2 : Fin 3) ([⟨S262144x16x1, val_main_v14 (F := Ideal) z⟩, ⟨S262144x16x1, val_main_v15 (F := Ideal)⟩, ⟨S262144x16x1, val_main_v16 (F := Ideal) z⟩] : List ((s : Shape) × (s.Idx → EReal)))
    (show Shape.Concatenates (List.map (·.1) ([⟨S262144x16x1, val_main_v14 (F := Ideal) z⟩, ⟨S262144x16x1, val_main_v15 (F := Ideal)⟩, ⟨S262144x16x1, val_main_v16 (F := Ideal) z⟩] : List ((s : Shape) × (s.Idx → EReal)))) S262144x16x3 2 from concatenates_S262144x16x1_S262144x16x1_S262144x16x1_S262144x16x3_d2)
    (idx_main_v25 (ix4 R n (0 : Fin 1) (2 : Fin 3))) 2 (by simp only [List.length_cons, List.length_nil]; omega) S262144x16x1 (val_main_v16 (F := Ideal) z) rfl rfl 2 (by rfl)
    (ix3 R n (0 : Fin 1))
    (fun b hb => by
      match b with
      | ⟨0, _⟩ => rfl
      | ⟨1, _⟩ => rfl
      | ⟨2, _⟩ => exact absurd rfl hb) (by rfl)).trans ?_
  simp only [val_main_v16_apply, v7_at]
  rfl

theorem A_at_20 (R : Fin 262144) (n : Fin 16) :
    val_main_v27 (F := Ideal) z (ix4 R n (2 : Fin 3) (0 : Fin 3)) =
      Cert.Rodrigues.skew Cert.Spec.zero (Cert.Spec.axis z R n 0) (Cert.Spec.axis z R n 1) (Cert.Spec.axis z R n 2) (2 : Fin 3) (0 : Fin 3) := by
  unfold val_main_v27
  refine (concatenate_apply_piece (t := S262144x16x3x3) (2 : Fin 4) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))
    (show Shape.Concatenates (List.map (·.1) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))) S262144x16x3x3 2 from concatenates_S262144x16x1x3_S262144x16x1x3_S262144x16x1x3_S262144x16x3x3_d2)
    (ix4 R n (2 : Fin 3) (0 : Fin 3)) 2 (by simp only [List.length_cons, List.length_nil]; omega) S262144x16x1x3 (val_main_v26 (F := Ideal) z) rfl rfl 2 (by rfl)
    (ix4 R n (0 : Fin 1) (0 : Fin 3))
    (fun b hb => by
      match b with
      | ⟨0, _⟩ => rfl
      | ⟨1, _⟩ => rfl
      | ⟨2, _⟩ => exact absurd rfl hb
      | ⟨3, _⟩ => rfl) (by rfl)).trans ?_
  rw [val_main_v26_apply]
  unfold val_main_v23
  refine (concatenate_apply_piece (t := S262144x16x3) (2 : Fin 3) ([⟨S262144x16x1, val_main_v20 (F := Ideal) z⟩, ⟨S262144x16x1, val_main_v21 (F := Ideal) z⟩, ⟨S262144x16x1, val_main_v22 (F := Ideal)⟩] : List ((s : Shape) × (s.Idx → EReal)))
    (show Shape.Concatenates (List.map (·.1) ([⟨S262144x16x1, val_main_v20 (F := Ideal) z⟩, ⟨S262144x16x1, val_main_v21 (F := Ideal) z⟩, ⟨S262144x16x1, val_main_v22 (F := Ideal)⟩] : List ((s : Shape) × (s.Idx → EReal)))) S262144x16x3 2 from concatenates_S262144x16x1_S262144x16x1_S262144x16x1_S262144x16x3_d2)
    (idx_main_v26 (ix4 R n (0 : Fin 1) (0 : Fin 3))) 0 (by simp only [List.length_cons, List.length_nil]; omega) S262144x16x1 (val_main_v20 (F := Ideal) z) rfl rfl 0 (by rfl)
    (ix3 R n (0 : Fin 1))
    (fun b hb => by
      match b with
      | ⟨0, _⟩ => rfl
      | ⟨1, _⟩ => rfl
      | ⟨2, _⟩ => exact absurd rfl hb) (by rfl)).trans ?_
  simp only [val_main_v20_apply, val_main_v18_apply, v5_at]
  rfl

theorem A_at_21 (R : Fin 262144) (n : Fin 16) :
    val_main_v27 (F := Ideal) z (ix4 R n (2 : Fin 3) (1 : Fin 3)) =
      Cert.Rodrigues.skew Cert.Spec.zero (Cert.Spec.axis z R n 0) (Cert.Spec.axis z R n 1) (Cert.Spec.axis z R n 2) (2 : Fin 3) (1 : Fin 3) := by
  unfold val_main_v27
  refine (concatenate_apply_piece (t := S262144x16x3x3) (2 : Fin 4) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))
    (show Shape.Concatenates (List.map (·.1) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))) S262144x16x3x3 2 from concatenates_S262144x16x1x3_S262144x16x1x3_S262144x16x1x3_S262144x16x3x3_d2)
    (ix4 R n (2 : Fin 3) (1 : Fin 3)) 2 (by simp only [List.length_cons, List.length_nil]; omega) S262144x16x1x3 (val_main_v26 (F := Ideal) z) rfl rfl 2 (by rfl)
    (ix4 R n (0 : Fin 1) (1 : Fin 3))
    (fun b hb => by
      match b with
      | ⟨0, _⟩ => rfl
      | ⟨1, _⟩ => rfl
      | ⟨2, _⟩ => exact absurd rfl hb
      | ⟨3, _⟩ => rfl) (by rfl)).trans ?_
  rw [val_main_v26_apply]
  unfold val_main_v23
  refine (concatenate_apply_piece (t := S262144x16x3) (2 : Fin 3) ([⟨S262144x16x1, val_main_v20 (F := Ideal) z⟩, ⟨S262144x16x1, val_main_v21 (F := Ideal) z⟩, ⟨S262144x16x1, val_main_v22 (F := Ideal)⟩] : List ((s : Shape) × (s.Idx → EReal)))
    (show Shape.Concatenates (List.map (·.1) ([⟨S262144x16x1, val_main_v20 (F := Ideal) z⟩, ⟨S262144x16x1, val_main_v21 (F := Ideal) z⟩, ⟨S262144x16x1, val_main_v22 (F := Ideal)⟩] : List ((s : Shape) × (s.Idx → EReal)))) S262144x16x3 2 from concatenates_S262144x16x1_S262144x16x1_S262144x16x1_S262144x16x3_d2)
    (idx_main_v26 (ix4 R n (0 : Fin 1) (1 : Fin 3))) 1 (by simp only [List.length_cons, List.length_nil]; omega) S262144x16x1 (val_main_v21 (F := Ideal) z) rfl rfl 1 (by rfl)
    (ix3 R n (0 : Fin 1))
    (fun b hb => by
      match b with
      | ⟨0, _⟩ => rfl
      | ⟨1, _⟩ => rfl
      | ⟨2, _⟩ => exact absurd rfl hb) (by rfl)).trans ?_
  simp only [val_main_v21_apply, val_main_v19_apply, v7_at]
  rfl

theorem A_at_22 (R : Fin 262144) (n : Fin 16) :
    val_main_v27 (F := Ideal) z (ix4 R n (2 : Fin 3) (2 : Fin 3)) =
      Cert.Rodrigues.skew Cert.Spec.zero (Cert.Spec.axis z R n 0) (Cert.Spec.axis z R n 1) (Cert.Spec.axis z R n 2) (2 : Fin 3) (2 : Fin 3) := by
  unfold val_main_v27
  refine (concatenate_apply_piece (t := S262144x16x3x3) (2 : Fin 4) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))
    (show Shape.Concatenates (List.map (·.1) ([⟨S262144x16x1x3, val_main_v24 (F := Ideal) z⟩, ⟨S262144x16x1x3, val_main_v25 (F := Ideal) z⟩, ⟨S262144x16x1x3, val_main_v26 (F := Ideal) z⟩] : List ((s : Shape) × (s.Idx → EReal)))) S262144x16x3x3 2 from concatenates_S262144x16x1x3_S262144x16x1x3_S262144x16x1x3_S262144x16x3x3_d2)
    (ix4 R n (2 : Fin 3) (2 : Fin 3)) 2 (by simp only [List.length_cons, List.length_nil]; omega) S262144x16x1x3 (val_main_v26 (F := Ideal) z) rfl rfl 2 (by rfl)
    (ix4 R n (0 : Fin 1) (2 : Fin 3))
    (fun b hb => by
      match b with
      | ⟨0, _⟩ => rfl
      | ⟨1, _⟩ => rfl
      | ⟨2, _⟩ => exact absurd rfl hb
      | ⟨3, _⟩ => rfl) (by rfl)).trans ?_
  rw [val_main_v26_apply]
  unfold val_main_v23
  refine (concatenate_apply_piece (t := S262144x16x3) (2 : Fin 3) ([⟨S262144x16x1, val_main_v20 (F := Ideal) z⟩, ⟨S262144x16x1, val_main_v21 (F := Ideal) z⟩, ⟨S262144x16x1, val_main_v22 (F := Ideal)⟩] : List ((s : Shape) × (s.Idx → EReal)))
    (show Shape.Concatenates (List.map (·.1) ([⟨S262144x16x1, val_main_v20 (F := Ideal) z⟩, ⟨S262144x16x1, val_main_v21 (F := Ideal) z⟩, ⟨S262144x16x1, val_main_v22 (F := Ideal)⟩] : List ((s : Shape) × (s.Idx → EReal)))) S262144x16x3 2 from concatenates_S262144x16x1_S262144x16x1_S262144x16x1_S262144x16x3_d2)
    (idx_main_v26 (ix4 R n (0 : Fin 1) (2 : Fin 3))) 2 (by simp only [List.length_cons, List.length_nil]; omega) S262144x16x1 (val_main_v22 (F := Ideal)) rfl rfl 2 (by rfl)
    (ix3 R n (0 : Fin 1))
    (fun b hb => by
      match b with
      | ⟨0, _⟩ => rfl
      | ⟨1, _⟩ => rfl
      | ⟨2, _⟩ => exact absurd rfl hb) (by rfl)).trans ?_
  simp only [val_main_v22_apply, val_main_v8_apply, val_main_cst_apply]
  rfl

/-- The skew matrix at any index. -/
theorem A_at (i : S262144x16x3x3.Idx) :
    val_main_v27 (F := Ideal) z i =
      Cert.Rodrigues.skew Cert.Spec.zero (Cert.Spec.axis z (i 0) (i 1) 0) (Cert.Spec.axis z (i 0) (i 1) 1) (Cert.Spec.axis z (i 0) (i 1) 2) (i 2) (i 3) := by
  obtain ⟨R, n, j, k, rfl⟩ : ∃ (R : Fin 262144) (n : Fin 16) (j k : Fin 3), i = ix4 R n j k := ⟨i 0, i 1, i 2, i 3, eq_ix4 i⟩
  match j, k with
  | ⟨0, _⟩, ⟨0, _⟩ => exact A_at_00 z R n
  | ⟨0, _⟩, ⟨1, _⟩ => exact A_at_01 z R n
  | ⟨0, _⟩, ⟨2, _⟩ => exact A_at_02 z R n
  | ⟨1, _⟩, ⟨0, _⟩ => exact A_at_10 z R n
  | ⟨1, _⟩, ⟨1, _⟩ => exact A_at_11 z R n
  | ⟨1, _⟩, ⟨2, _⟩ => exact A_at_12 z R n
  | ⟨2, _⟩, ⟨0, _⟩ => exact A_at_20 z R n
  | ⟨2, _⟩, ⟨1, _⟩ => exact A_at_21 z R n
  | ⟨2, _⟩, ⟨2, _⟩ => exact A_at_22 z R n

/-! ## The identity matrix: a comparison of the row and column index grids, converted to a float -/

theorem eye_bits : ∀ j k : Fin 3,
    (IntOp.cmpi .eq (IntOp.addi (BitVec.ofNat 32 j.val) 0#32) (BitVec.ofNat 32 k.val)).toNat = if j = k then 1 else 0 := by decide

theorem eye_at (j k : Fin 3) : val_main_v60 (F := Ideal) (ix2 j k) = if j = k then (1 : EReal) else 0 := by
  rw [val_main_v60_apply, val_main_v59_apply, val_main_v58_apply, val_main_v55_apply, val_main_v56_apply, val_main_v57_apply, val_main_c_apply]
  show (((IntOp.cmpi .eq (IntOp.addi (BitVec.ofNat 32 j.val) 0#32) (BitVec.ofNat 32 k.val)).toNat : ℝ) : EReal) = _
  rw [eye_bits j k]
  split_ifs <;> simp

/-- The broadcast identity at an index is the 3x3 grid's entry at the index's last two coordinates. -/
theorem eye_bcast_at (i : S262144x16x3x3.Idx) : val_main_v65 (F := Ideal) i = val_main_v60 (F := Ideal) (ix2 (i 2) (i 3)) := by
  rw [val_main_v65_apply, val_main_v64_apply]
  congr 1
  funext a
  match a with
  | ⟨0, _⟩ => rfl
  | ⟨1, _⟩ => rfl

/-! ## The mean at an index: `I + s₁ A + s₂ A²` -/

theorem mean_at (i : S262144x16x3x3.Idx) :
    val_main_v70 (F := Ideal) z i =
      Cert.Rodrigues.viaSquare (fun j k => val_main_v60 (F := Ideal) (ix2 j k)) Cert.Spec.zero
        (Cert.Spec.coef1 (Cert.Spec.thetaSq (Cert.Spec.axis z (i 0) (i 1) 0) (Cert.Spec.axis z (i 0) (i 1) 1) (Cert.Spec.axis z (i 0) (i 1) 2)))
        (Cert.Spec.coef2 (Cert.Spec.thetaSq (Cert.Spec.axis z (i 0) (i 1) 0) (Cert.Spec.axis z (i 0) (i 1) 1) (Cert.Spec.axis z (i 0) (i 1) 2)))
        (Cert.Spec.axis z (i 0) (i 1) 0) (Cert.Spec.axis z (i 0) (i 1) 1) (Cert.Spec.axis z (i 0) (i 1) 2) (i 2) (i 3) := by
  simp only [val_main_v70_apply, val_main_v66_apply, val_main_v69_apply, val_main_v63_apply, val_main_v62_apply, val_main_v61_apply,
    val_main_v68_apply, val_main_v67_apply, val_main_v54_apply, eye_bcast_at, coef1_at, coef2_at, A_at]
  rfl

/-! ## The log-variance at an index -/

theorem logvar_at (i : S262144x16x3.Idx) :
    val_main_v82 (F := Ideal) z i = Cert.Spec.logvar (z (ix2 (i 0) (⟨48 + (3 * (i 1).val + (i 2).val), by
      have h1 : (i 1).val < 16 := (i 1).isLt; have h2 : (i 2).val < 3 := (i 2).isLt; omega⟩ : Fin 96))) := by
  have h0 : (i 0).val < 262144 := (i 0).isLt
  have h1 : (i 1).val < 16 := (i 1).isLt
  have h2 : (i 2).val < 3 := (i 2).isLt
  have eidx : idx_main_v71 (idx_main_v72 i) = ix2 (i 0) (⟨48 + (3 * (i 1).val + (i 2).val), by omega⟩ : Fin 96) := by
    funext a
    apply Fin.ext
    match a with
    | ⟨0, _⟩ => dsimp only; show _ = (i 0).val; omega
    | ⟨1, _⟩ => dsimp only; show _ = 48 + (3 * (i 1).val + (i 2).val); omega
  simp only [val_main_v82_apply, val_main_v80_apply, val_main_v79_apply, val_main_cst_9_apply, val_main_v78_apply, val_main_v77_apply,
    val_main_cst_8_apply, val_main_v76_apply, val_main_v75_apply, val_main_cst_7_apply, val_main_v74_apply, val_main_v73_apply,
    val_main_v72_apply, val_main_v71_apply, val_main_v81_apply, val_main_cst_10_apply, eidx]
  show Ideal.ofBits .f32 0x40ACCCCD#32 * Ideal.div Cert.Spec.unit (Cert.Spec.unit + Ideal.exp (-(z _))) - Ideal.ofBits .f32 0x41133333#32 = _
  rw [Cert.Spec.unit_eq]
  rfl

/-! ## The two results as whole arrays -/

/-- On real inputs the reference's rotations are the flattened closed-form rotations, reshaped. -/
theorem ref_mean_eq (hfin : ∀ i, ∃ r : ℝ, z i = (r : EReal)) (hc : (⟨2, ![262144, 144]⟩ : Shape).ShapeCasts S262144x16x3x3) :
    val_main_v70 (F := Ideal) z = shapeCast S262144x16x3x3 (Cert.Spec.meanFlat z) hc := by
  funext i
  have h0 : (i 0).val < 262144 := (i 0).isLt
  have h1 : (i 1).val < 16 := (i 1).isLt
  have h2 : (i 2).val < 3 := (i 2).isLt
  have h3 : (i 3).val < 3 := (i 3).isLt
  obtain ⟨ra, hA⟩ : ∃ r : ℝ, Cert.Spec.axis z (i 0) (i 1) 0 = (r : EReal) := hfin _
  obtain ⟨rb, hB⟩ : ∃ r : ℝ, Cert.Spec.axis z (i 0) (i 1) 1 = (r : EReal) := hfin _
  obtain ⟨rc, hC⟩ : ∃ r : ℝ, Cert.Spec.axis z (i 0) (i 1) 2 = (r : EReal) := hfin _
  refine (mean_at z i).trans ?_
  simp only [hA, hB, hC]
  refine (Cert.Rodrigues.closedForm_eq (fun j k => val_main_v60 (F := Ideal) (ix2 j k)) Cert.Spec.unit Cert.Spec.zero _ _ ra rb rc
    Cert.Spec.unit_eq Cert.Spec.zero_eq eye_at (i 2) (i 3)).symm.trans ?_
  refine ((shapeCast_apply (Cert.Spec.meanFlat z) hc i (ix2 (i 0) (⟨9 * (i 1).val + 3 * (i 2).val + (i 3).val, by omega⟩ : Fin 144)) (by
    rw [Shape.rowMajor_val_two, Shape.rowMajor_val_four]
    show (i 0).val * 144 + (9 * (i 1).val + 3 * (i 2).val + (i 3).val) = (((i 0).val * 16 + (i 1).val) * 3 + (i 2).val) * 3 + (i 3).val
    omega)).trans ?_).symm
  refine (Cert.Spec.meanFlat_apply z (i 0) (i 1) (i 2) (i 3) _ rfl).trans ?_
  simp only [hA, hB, hC]
  rfl

/-- The reference's log-variances are the flattened log-variances, reshaped. -/
theorem ref_logvar_eq (hc : (⟨2, ![262144, 48]⟩ : Shape).ShapeCasts S262144x16x3) :
    val_main_v82 (F := Ideal) z = shapeCast S262144x16x3 (Cert.Spec.logvarFlat z) hc := by
  funext i
  have h0 : (i 0).val < 262144 := (i 0).isLt
  have h1 : (i 1).val < 16 := (i 1).isLt
  have h2 : (i 2).val < 3 := (i 2).isLt
  refine (logvar_at z i).trans ?_
  refine ((shapeCast_apply (Cert.Spec.logvarFlat z) hc i (ix2 (i 0) (⟨3 * (i 1).val + (i 2).val, by omega⟩ : Fin 48)) (by
    rw [Shape.rowMajor_val_two, Shape.rowMajor_val_three]
    show (i 0).val * 48 + (3 * (i 1).val + (i 2).val) = ((i 0).val * 16 + (i 1).val) * 3 + (i 2).val
    omega)).trans ?_).symm
  rfl

end Cert.ReferenceIdeal.Hand

end
-- ==== Proof.Finite.lean ====
/-
  Finite inputs are real.

  The precondition is `jnp.all(|z| < +∞)`: a reduction by `and` over every entry of the comparison of `|z|` with the
  f32 pattern of `+∞`. If it is 1, every entry's comparison is 1, so `max z (-z) < ⊤`, and an extended real with
  that property is neither infinity: it is a real number.
-/
import proofs.«159265_j83631603187719_2_alg».proof.Pre_finite_inputs
import proofs.«159265_j83631603187719_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section
namespace Cert.Finite
open Idealize.ShloMosaic

theorem ofBool_eq_one {b : Bool} (h : BitVec.ofBool b = 1#1) : b = true := by
  cases b
  · exact absurd h (by decide)
  · rfl

theorem inf_eq_top : Ideal.ofBits .f32 0x7F800000#32 = ⊤ := by simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem finite_of_pre (z : FVec Ideal Cert.Pre_finite_inputs.S262144x96 .f32)
    (h : Cert.Pre_finite_inputs.fn (F := Ideal) z = fun _ => 1#1) (i : Cert.Pre_finite_inputs.S262144x96.Idx) :
    ∃ r : ℝ, z i = (r : EReal) := by
  have e := congrFun h ValueIdx.ix0
  dsimp only [Cert.Pre_finite_inputs.fn] at e
  haveI : Subsingleton Cert.Pre_finite_inputs.S_.Idx := ⟨fun a b => funext fun d => d.elim0⟩
  have hi := Host.reduce_andi_all _ _ _ _ ValueIdx.ix0 e i
  have hi' : Ideal.cmp .olt (max (z i) (-(z i))) (Ideal.ofBits .f32 0x7F800000#32) = 1#1 := hi
  have hlt : max (z i) (-(z i)) < Ideal.ofBits .f32 0x7F800000#32 := of_decide_eq_true (ofBool_eq_one hi')
  rw [inf_eq_top] at hlt
  exact real_of_abs_lt_top _ hlt

end Cert.Finite
end
-- ==== Proof.lean ====
/-
  The kernel computes, for each of 262144 rows and 16 gaussians, the rotation `exp(A)` of a skew-symmetric
  3x3 matrix `A` built from three axis parameters `(a, b, c)`, by Rodrigues' formula `I + s₁ A + s₂ A²` with the
  nine entries expanded in closed form (`A² = w wᵀ - θ² I`), and a log-variance `5.4 σ(x) - 9.2` of three logits;
  the reference forms `A`, multiplies it by itself and adds the three terms.

  On the extended reals the two agree on finite inputs: both compute `θ² = a² + b² + c²`, the small-angle test and
  the two coefficients `s₁`, `s₂` by the same operations on the same literals, so those are never opened; the nine
  closed-form entries equal the entries of `I + s₁ A + s₂ A²` by laws that need only `a`, `b`, `c` real
  (`Rodrigues.closedForm_eq`), which the precondition gives (`Finite.finite_of_pre`); and the kernel's
  logistic function is the reference's `1 / (1 + e⁻ˣ)`.

  The kernel side: @main re-lays the first 48 columns into three 16-column planes, a pipeline of 512 grid points
  each overwrites a 512-row block of the two outputs with a pure function of the matching input blocks
  (`FrameBits`, `FrameIdeal`: the run), the blocks tile the outputs (`KernelValue`), and two reshapes follow.
  The reference side is its generated run read back stage by stage (`RefValue`).
-/
import proofs.«159265_j83631603187719_2_alg».proof.Defs
import proofs.«159265_j83631603187719_2_alg».proof.Proof.Gen.Kernel
import proofs.«159265_j83631603187719_2_alg».proof.Proof.Gen.KernelIdeal
import proofs.«159265_j83631603187719_2_alg».proof.Proof.Gen.ReferenceIdeal
import proofs.«159265_j83631603187719_2_alg».proof.Proof.Gen.Pre_finite_inputs
import proofs.«159265_j83631603187719_2_alg».proof.Proof.Gen.ReferenceIdeal.Run
import proofs.«159265_j83631603187719_2_alg».proof.Proof.Gen.ReferenceIdeal.Read
import proofs.«159265_j83631603187719_2_alg».proof.Proof.FrameBits
import proofs.«159265_j83631603187719_2_alg».proof.Proof.FrameIdeal
import proofs.«159265_j83631603187719_2_alg».proof.Proof.KernelValue
import proofs.«159265_j83631603187719_2_alg».proof.Proof.RefValue
import proofs.«159265_j83631603187719_2_alg».proof.Proof.Finite
import Idealize.ShloMosaic.Adequacy
import Idealize.ShloMosaic.Init

noncomputable section

namespace Cert.Proof

open Idealize.ShloMosaic Idealize.SL.Sem

/-- The word-level kernel program runs to the end and leaves its argument unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the argument, both idealized programs end with the reshaped flattened rotations and
    log-variances of the argument: the kernel by its run read block by block, the reference by its stages read at
    an index, the rotations joined by the Rodrigues identity on real `(a, b, c)`. -/
theorem algebraic : Cert.algebraic_KernelIdeal_ReferenceIdeal := by
  intro m ρ m' ρ' hpre hagree
  refine ⟨_, _, Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v70_eq, hagree c]
    exact Cert.ReferenceIdeal.Hand.ref_mean_eq _ (fun i => Cert.Finite.finite_of_pre _ (hpre c) i) _
  · rw [Cert.ReferenceIdeal.Read.val_main_v82_eq, hagree c]
    exact Cert.ReferenceIdeal.Hand.ref_logvar_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
